-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1600000 : Shape := ⟨1, ![1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S128 .f32) (main_arg5 : FVec F S128x1 .f32) (main_arg6 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg5
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x256 .f32) (main_arg1 : FVec F S256x128 .f32) (main_arg2 : FVec F S128 .f32) (main_arg3 : FVec F S128x128 .f32) (main_arg4 : FVec F S128 .f32) (main_arg5 : FVec F S128x1 .f32) (main_arg6 : FVec F S1 .f32) (main_arg7 : IVec S1600000 32) (main_arg8 : IVec S1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x256 : Shape := ⟨2, ![100000, 256]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S1x1 : Shape := ⟨2, ![1, 1]⟩
abbrev S100000x128 : Shape := ⟨2, ![100000, 128]⟩
abbrev S4000x256 : Shape := ⟨2, ![4000, 256]⟩
abbrev S4000x1 : Shape := ⟨2, ![4000, 1]⟩
abbrev S4000x128 : Shape := ⟨2, ![4000, 128]⟩
abbrev S1600000x128 : Shape := ⟨2, ![1600000, 128]⟩
abbrev S4000 : Shape := ⟨1, ![4000]⟩

abbrev nBuf : Space → Nat
  | .hbm => 68
  | .vmem => 26
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x1, .f32⟩
  | .hbm, ⟨37, _⟩ => ⟨S100000x128, .bf16⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .bf16⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S100000x128, .bf16⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .bf16⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S100000x1, .f32⟩
  | .local _ .vmem, ⟨0, _⟩ => ⟨S4000x256, .f32⟩
  | .local _ .vmem, ⟨1, _⟩ => ⟨S4000x256, .f32⟩
  | .local _ .vmem, ⟨2, _⟩ => ⟨S4000x1, .f32⟩
  | .local _ .vmem, ⟨3, _⟩ => ⟨S4000x1, .f32⟩
  | .local _ .vmem, ⟨4, _⟩ => ⟨S256x128, .f32⟩
  | .local _ .vmem, ⟨5, _⟩ => ⟨S4000x128, .bf16⟩
  | .local _ .vmem, ⟨6, _⟩ => ⟨S4000x128, .bf16⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S1x128, .f32⟩
  | .local _ .vmem, ⟨12, _⟩ => ⟨S4000x1, .f32⟩
  | .local _ .vmem, ⟨13, _⟩ => ⟨S4000x1, .f32⟩
  | .local _ .vmem, ⟨14, _⟩ => ⟨S128x128, .f32⟩
  | .local _ .vmem, ⟨15, _⟩ => ⟨S4000x128, .bf16⟩
  | .local _ .vmem, ⟨16, _⟩ => ⟨S4000x128, .bf16⟩
  | .local _ .vmem, ⟨17, _⟩ => ⟨S4000x128, .f32⟩
  | .local _ .vmem, ⟨18, _⟩ => ⟨S4000x128, .f32⟩
  | .local _ .vmem, ⟨19, _⟩ => ⟨S4000x1, .f32⟩
  | .local _ .vmem, ⟨20, _⟩ => ⟨S4000x1, .f32⟩
  | .local _ .vmem, ⟨21, _⟩ => ⟨S1x128, .f32⟩
  | .local _ .vmem, ⟨22, _⟩ => ⟨S1x128, .f32⟩
  | .local _ .vmem, ⟨23, _⟩ => ⟨S1x1, .f32⟩
  | .local _ .vmem, ⟨24, _⟩ => ⟨S4000x1, .f32⟩
  | .local _ .vmem, ⟨25, _⟩ => ⟨S4000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_v12 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_c_9 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  shapeCasts_S128x1_S1x128 : S128x1.ShapeCasts S1x128
  shapeCasts_S1_S1x1 : S1.ShapeCasts S1x1
  inb_S4000x256_S4000x256_0_0 : ∀ a, (![0, 0] : Fin 2 → Nat) a + S4000x256.size a ≤ S4000x256.size a
  h_S4000x256 : 0 < S4000x256.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x256 : S4000x1.Broadcasts S4000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  shapeCasts_S4000x128_S4000x128 : S4000x128.ShapeCasts S4000x128
  broadcasts_S4000x1_S4000x128 : S4000x1.Broadcasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  reduces_S4000x128_S4000 : S4000x128.Reduces [1] S4000
  shapeCasts_S4000_S4000x1 : S4000.ShapeCasts S4000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  scatter_S100000_S1600000x1_S1600000_n_0_0_1_wf : ScatterDims.WF S100000 S1600000x1 S1600000 [] [0] [0] 1
  dot_S4000x256_S256x128_S4000x128_1_0_0_1_n_n_wf : DotDims.WF S4000x256 S256x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .bf16 = 32 ∨ (Rect.block (s := S100000x128) S4000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x1.size a ≤ S100000x1.size a
  hwx1_3 : ∀ i : grid1.Coords, EltTy.bits .f32 = 32 ∨ (Rect.block (s := S100000x1) S4000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .bf16 = 32 ∨ (Rect.block (s := S100000x128) S4000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x1.size a ≤ S100000x1.size a
  hwx2_5 : ∀ i : grid2.Coords, EltTy.bits .f32 = 32 ∨ (Rect.block (s := S100000x1) S4000x1.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S4000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v44) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S4000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x256 : Shape := ⟨2, ![100000, 256]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S1600000x128 : Shape := ⟨2, ![1600000, 128]⟩
abbrev S1x128 : Shape := ⟨2, ![1, 128]⟩
abbrev S1x1 : Shape := ⟨2, ![1, 1]⟩

abbrev nBuf : Space → Nat
  | .hbm => 84
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x256, .f32⟩
  | .hbm, ⟨33, _⟩ => ⟨S100000x256, .f32⟩
  | .hbm, ⟨34, _⟩ => ⟨S100000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S100000x1, .f32⟩
  | .hbm, ⟨49, _⟩ => ⟨S100000x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S100000x128, .f32⟩
  | .hbm, ⟨56, _⟩ => ⟨S100000x128, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x128, .f32⟩
  | .hbm, ⟨70, _⟩ => ⟨S_, .f32⟩
  | .hbm, ⟨71, _⟩ => ⟨S100000x128, .f32⟩
  | .hbm, ⟨72, _⟩ => ⟨S1600000x1, .i32⟩
  | .hbm, ⟨73, _⟩ => ⟨S100000x128, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S100000x1, .f32⟩
  | .hbm, ⟨81, _⟩ => ⟨S1x1, .f32⟩
  | .hbm, ⟨82, _⟩ => ⟨S100000x1, .f32⟩
  | .hbm, ⟨83, _⟩ => ⟨S100000x1, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_v11 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_c_6 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call0_cst : Ref sig .tc := ⟨.hbm, 54, rfl⟩
abbrev main_call0_v0 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_c_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KernelRun.lean ====
/-
  The idealized kernel program's run, with the result array named.

  The program is three kernel regions among three stretches of host operations. Its run ends with every buffer
  that outlives the regions at the last boundary's contents; in particular the result buffer holds what the third
  region's write-backs leave in it, and the nine argument buffers hold what they were launched with. This module
  states that run with the result buffer in the post beside the arguments.
-/
import proofs.«113927_j56487409877510_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library theorem's implicit arguments are found by unifying its conclusion with this statement, which takes
-- unfolding plain definitions in a metavariable's type
set_option backward.isDefEq.respectTransparency.types false in
/-- Every weakly fair execution of the program terminates without a fault, the result buffer at the last
    boundary's contents and the argument buffers as launched. -/
theorem run_named : θ_run defs (onTc (τ := τ) (main (F := F))) ⟨m, fun _ => 0, ρ⟩ (fun r => ∀ c : Dev nD,
      r.2.mem ((c.tc : Thread nD τ).loc main_v45) = W6 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v45 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.Whole

end
-- ==== Proof.Spec.lean ====
/-
  The two-layer graph convolution with a final linear read-out, as plain functions on the extended reals.

  A graph has 100000 nodes; every node carries a feature row. One layer does three things to the rows:
  a linear map (each node's row is scaled by the node's own source-side factor `s p` and multiplied by the
  weight matrix), an aggregation over the edges (left abstract here: both programs apply the same host
  operations to it), and an affine step (the aggregated row is scaled by the node's destination-side factor
  `d p` and a bias row is added). Between the two layers the affine step is followed by the positive part;
  after the second layer the affine step is followed by the inner product with the one read-out column and
  the addition of the one read-out bias.

  Everything is stated entry by entry, by the coordinates of the entry, so that a program's value at an index
  can be compared with these functions by rewriting its operations one at a time. No law of the extended
  reals is used: the two programs group every sum and product in the same way.
-/
import Idealize.ShloMosaic.PureOps.Ideal
import Idealize.ShloMosaic.Lib.ValueIdx

noncomputable section

namespace Cert.Gcn

open Idealize.ShloMosaic Idealize.ShloMosaic.ValueIdx

/-- A vector of length `n` laid down a column `[n, 1]`: the entry of row `p` is the vector's entry `p`. -/
def colOf {n : ℕ} (v : (⟨1, ![n]⟩ : Shape).Idx → EReal) : (⟨2, ![n, 1]⟩ : Shape).Idx → EReal :=
  fun i => v (ix1 (i 0))

/-- A vector of length `n` laid along a row `[1, n]`: the entry of column `k` is the vector's entry `k`. -/
def rowOf {n : ℕ} (v : (⟨1, ![n]⟩ : Shape).Idx → EReal) : (⟨2, ![1, n]⟩ : Shape).Idx → EReal :=
  fun i => v (ix1 (i 1))

/-- A one-column matrix `[n, 1]` laid along a row `[1, n]`: the entry of column `k` is the column's entry of row `k`. -/
def rowOfCol {n : ℕ} (v : (⟨2, ![n, 1]⟩ : Shape).Idx → EReal) : (⟨2, ![1, n]⟩ : Shape).Idx → EReal :=
  fun i => v (ix2 (i 1) (0 : Fin 1))

/-- A one-entry vector as the one-entry matrix `[1, 1]`. -/
def cellOf (v : (⟨1, ![1]⟩ : Shape).Idx → EReal) : (⟨2, ![1, 1]⟩ : Shape).Idx → EReal :=
  fun _ => v (ix1 (0 : Fin 1))

theorem colOf_ix2 {n : ℕ} (v : (⟨1, ![n]⟩ : Shape).Idx → EReal) (p : Fin n) (u : Fin 1) : colOf v (ix2 p u) = v (ix1 p) := rfl
theorem rowOf_ix2 {n : ℕ} (v : (⟨1, ![n]⟩ : Shape).Idx → EReal) (z : Fin 1) (k : Fin n) : rowOf v (ix2 z k) = v (ix1 k) := rfl
theorem rowOfCol_ix2 {n : ℕ} (v : (⟨2, ![n, 1]⟩ : Shape).Idx → EReal) (z : Fin 1) (k : Fin n) :
    rowOfCol v (ix2 z k) = v (ix2 k (0 : Fin 1)) := rfl
theorem cellOf_apply (v : (⟨1, ![1]⟩ : Shape).Idx → EReal) (i : (⟨2, ![1, 1]⟩ : Shape).Idx) : cellOf v i = v (ix1 (0 : Fin 1)) := rfl

/-! ## The linear map of a layer -/

/-- The linear map at node `p` and output feature `q`, the node factors given as a column `[100000, 1]`: the sum over
    the input features `k` of the node's entry, scaled by the node's factor, times the weight of `k` towards `q`. -/
def linColAt {K : ℕ} (x : (⟨2, ![100000, K]⟩ : Shape).Idx → EReal) (sc : (⟨2, ![100000, 1]⟩ : Shape).Idx → EReal)
    (w : (⟨2, ![K, 128]⟩ : Shape).Idx → EReal) (p : Fin 100000) (q : Fin 128) : EReal :=
  ∑ k : Fin K, (x (ix2 p k) * sc (ix2 p (0 : Fin 1))) * w (ix2 k q)

/-- The linear map as an array `[100000, 128]`, the node factors given as a column. -/
def linCol {K : ℕ} (x : (⟨2, ![100000, K]⟩ : Shape).Idx → EReal) (sc : (⟨2, ![100000, 1]⟩ : Shape).Idx → EReal)
    (w : (⟨2, ![K, 128]⟩ : Shape).Idx → EReal) : (⟨2, ![100000, 128]⟩ : Shape).Idx → EReal :=
  fun i => linColAt x sc w (i 0) (i 1)

theorem linCol_ix2 {K : ℕ} (x : (⟨2, ![100000, K]⟩ : Shape).Idx → EReal) (sc : (⟨2, ![100000, 1]⟩ : Shape).Idx → EReal)
    (w : (⟨2, ![K, 128]⟩ : Shape).Idx → EReal) (p : Fin 100000) (q : Fin 128) :
    linCol x sc w (ix2 p q) = ∑ k : Fin K, (x (ix2 p k) * sc (ix2 p (0 : Fin 1))) * w (ix2 k q) := rfl

/-- The linear map with the node factors given as a vector. -/
def lin {K : ℕ} (x : (⟨2, ![100000, K]⟩ : Shape).Idx → EReal) (s : (⟨1, ![100000]⟩ : Shape).Idx → EReal)
    (w : (⟨2, ![K, 128]⟩ : Shape).Idx → EReal) : (⟨2, ![100000, 128]⟩ : Shape).Idx → EReal :=
  linCol x (colOf s) w

theorem lin_ix2 {K : ℕ} (x : (⟨2, ![100000, K]⟩ : Shape).Idx → EReal) (s : (⟨1, ![100000]⟩ : Shape).Idx → EReal)
    (w : (⟨2, ![K, 128]⟩ : Shape).Idx → EReal) (p : Fin 100000) (q : Fin 128) :
    lin x s w (ix2 p q) = ∑ k : Fin K, (x (ix2 p k) * s (ix1 p)) * w (ix2 k q) := rfl

/-! ## The step between the layers -/

/-- The activation at node `p`, feature `k`, the destination factors given as a column and the bias as a row: the
    aggregated entry scaled by the node's factor, plus the feature's bias, then the positive part (the larger of that
    number and the zero word's value). -/
def actColAt (agg : (⟨2, ![100000, 128]⟩ : Shape).Idx → EReal) (dc : (⟨2, ![100000, 1]⟩ : Shape).Idx → EReal)
    (br : (⟨2, ![1, 128]⟩ : Shape).Idx → EReal) (p : Fin 100000) (k : Fin 128) : EReal :=
  max (agg (ix2 p k) * dc (ix2 p (0 : Fin 1)) + br (ix2 (0 : Fin 1) k)) (Ideal.ofBits .f32 0x00000000#32)

/-- The activation as an array `[100000, 128]`. -/
def actCol (agg : (⟨2, ![100000, 128]⟩ : Shape).Idx → EReal) (dc : (⟨2, ![100000, 1]⟩ : Shape).Idx → EReal)
    (br : (⟨2, ![1, 128]⟩ : Shape).Idx → EReal) : (⟨2, ![100000, 128]⟩ : Shape).Idx → EReal :=
  fun i => actColAt agg dc br (i 0) (i 1)

theorem actCol_ix2 (agg : (⟨2, ![100000, 128]⟩ : Shape).Idx → EReal) (dc : (⟨2, ![100000, 1]⟩ : Shape).Idx → EReal)
    (br : (⟨2, ![1, 128]⟩ : Shape).Idx → EReal) (p : Fin 100000) (k : Fin 128) :
    actCol agg dc br (ix2 p k)
      = max (agg (ix2 p k) * dc (ix2 p (0 : Fin 1)) + br (ix2 (0 : Fin 1) k)) (Ideal.ofBits .f32 0x00000000#32) := rfl

/-- The activation with the destination factors and the bias given as vectors. -/
def act (agg : (⟨2, ![100000, 128]⟩ : Shape).Idx → EReal) (d : (⟨1, ![100000]⟩ : Shape).Idx → EReal)
    (b : (⟨1, ![128]⟩ : Shape).Idx → EReal) : (⟨2, ![100000, 128]⟩ : Shape).Idx → EReal :=
  actCol agg (colOf d) (rowOf b)

theorem act_ix2 (agg : (⟨2, ![100000, 128]⟩ : Shape).Idx → EReal) (d : (⟨1, ![100000]⟩ : Shape).Idx → EReal)
    (b : (⟨1, ![128]⟩ : Shape).Idx → EReal) (p : Fin 100000) (k : Fin 128) :
    act agg d b (ix2 p k) = max (agg (ix2 p k) * d (ix1 p) + b (ix1 k)) (Ideal.ofBits .f32 0x00000000#32) := rfl

/-! ## The read-out -/

/-- The read-out at node `p`, the destination factors given as a column, the bias and the read-out weights as rows and
    the read-out bias as a one-entry matrix: the sum over the features `k` of the aggregated entry scaled by the node's
    factor plus the feature's bias, times the read-out weight of `k`; plus the read-out bias. -/
def outColAt (agg : (⟨2, ![100000, 128]⟩ : Shape).Idx → EReal) (dc : (⟨2, ![100000, 1]⟩ : Shape).Idx → EReal)
    (br : (⟨2, ![1, 128]⟩ : Shape).Idx → EReal) (wr : (⟨2, ![1, 128]⟩ : Shape).Idx → EReal)
    (bc : (⟨2, ![1, 1]⟩ : Shape).Idx → EReal) (p : Fin 100000) : EReal :=
  (∑ k : Fin 128, (agg (ix2 p k) * dc (ix2 p (0 : Fin 1)) + br (ix2 (0 : Fin 1) k)) * wr (ix2 (0 : Fin 1) k))
    + bc (ix2 (0 : Fin 1) (0 : Fin 1))

/-- The read-out as an array `[100000, 1]`. -/
def outCol (agg : (⟨2, ![100000, 128]⟩ : Shape).Idx → EReal) (dc : (⟨2, ![100000, 1]⟩ : Shape).Idx → EReal)
    (br : (⟨2, ![1, 128]⟩ : Shape).Idx → EReal) (wr : (⟨2, ![1, 128]⟩ : Shape).Idx → EReal)
    (bc : (⟨2, ![1, 1]⟩ : Shape).Idx → EReal) : (⟨2, ![100000, 1]⟩ : Shape).Idx → EReal :=
  fun i => outColAt agg dc br wr bc (i 0)

theorem outCol_ix2 (agg : (⟨2, ![100000, 128]⟩ : Shape).Idx → EReal) (dc : (⟨2, ![100000, 1]⟩ : Shape).Idx → EReal)
    (br : (⟨2, ![1, 128]⟩ : Shape).Idx → EReal) (wr : (⟨2, ![1, 128]⟩ : Shape).Idx → EReal)
    (bc : (⟨2, ![1, 1]⟩ : Shape).Idx → EReal) (p : Fin 100000) (u : Fin 1) :
    outCol agg dc br wr bc (ix2 p u)
      = (∑ k : Fin 128, (agg (ix2 p k) * dc (ix2 p (0 : Fin 1)) + br (ix2 (0 : Fin 1) k)) * wr (ix2 (0 : Fin 1) k))
        + bc (ix2 (0 : Fin 1) (0 : Fin 1)) := rfl

/-- The read-out with the factors and the bias given as vectors, the read-out weights as the column `[128, 1]` and the
    read-out bias as the one-entry vector. -/
def out (agg : (⟨2, ![100000, 128]⟩ : Shape).Idx → EReal) (d : (⟨1, ![100000]⟩ : Shape).Idx → EReal)
    (b : (⟨1, ![128]⟩ : Shape).Idx → EReal) (wfc : (⟨2, ![128, 1]⟩ : Shape).Idx → EReal)
    (bfc : (⟨1, ![1]⟩ : Shape).Idx → EReal) : (⟨2, ![100000, 1]⟩ : Shape).Idx → EReal :=
  outCol agg (colOf d) (rowOf b) (rowOfCol wfc) (cellOf bfc)

theorem out_ix2 (agg : (⟨2, ![100000, 128]⟩ : Shape).Idx → EReal) (d : (⟨1, ![100000]⟩ : Shape).Idx → EReal)
    (b : (⟨1, ![128]⟩ : Shape).Idx → EReal) (wfc : (⟨2, ![128, 1]⟩ : Shape).Idx → EReal)
    (bfc : (⟨1, ![1]⟩ : Shape).Idx → EReal) (p : Fin 100000) (u : Fin 1) :
    out agg d b wfc bfc (ix2 p u)
      = (∑ k : Fin 128, (agg (ix2 p k) * d (ix1 p) + b (ix1 k)) * wfc (ix2 k (0 : Fin 1))) + bfc (ix1 (0 : Fin 1)) := rfl

/-! ## The whole network -/

/-- The network: linear map, aggregation `A`, activation; linear map, aggregation, read-out. The node factors `s`, `d`
    and the aggregation `A` are parameters: each program computes them from the edge lists by host operations. -/
def net (x : (⟨2, ![100000, 256]⟩ : Shape).Idx → EReal) (w1 : (⟨2, ![256, 128]⟩ : Shape).Idx → EReal)
    (b1 : (⟨1, ![128]⟩ : Shape).Idx → EReal) (w2 : (⟨2, ![128, 128]⟩ : Shape).Idx → EReal)
    (b2 : (⟨1, ![128]⟩ : Shape).Idx → EReal) (wfc : (⟨2, ![128, 1]⟩ : Shape).Idx → EReal)
    (bfc : (⟨1, ![1]⟩ : Shape).Idx → EReal) (s d : (⟨1, ![100000]⟩ : Shape).Idx → EReal)
    (A : ((⟨2, ![100000, 128]⟩ : Shape).Idx → EReal) → ((⟨2, ![100000, 128]⟩ : Shape).Idx → EReal)) :
    (⟨2, ![100000, 1]⟩ : Shape).Idx → EReal :=
  out (A (lin (act (A (lin x s w1)) d b1) s w2)) d b2 wfc bfc

end Cert.Gcn

end
-- ==== Proof.LibPlainProduct.lean ====
/-
  The plain matrix product at the exact extended reals, read at an index given by coordinates.
  For dimension numbers that contract the left operand's axis 1 with the right operand's axis 0 (no batch axes),
  the contraction sum of an `[M, K]` by `[K, N]` product at `(p, q)` is `∑ k, l (p, k) * r (k, q)` over the `K`
  coordinates of the shared axis — for the matrix unit's product into a zero accumulator and for the host's
  `dot_general` alike. General in the three extents and in the operands' formats.
-/
import Idealize.ShloMosaic.Lib.ValueIdx
import Idealize.ShloMosaic.PureOps.Ideal.Laws

namespace Idealize.ShloMosaic.ValueIdx

open Idealize.ShloMosaic

/-- The left operand's row coordinate of a plain product is the result's row, whatever the contraction index. -/
theorem plain_lhsIdx_row {M K N : ℕ} (wf) (j : (⟨2, ![M, N]⟩ : Shape).Idx)
    (k : (⟨[1], [0], [0], [1], [], [], wf⟩ : DotDims ⟨2, ![M, K]⟩ ⟨2, ![K, N]⟩ ⟨2, ![M, N]⟩).contr.Idx) :
    ((⟨[1], [0], [0], [1], [], [], wf⟩ : DotDims ⟨2, ![M, K]⟩ ⟨2, ![K, N]⟩ ⟨2, ![M, N]⟩).lhsIdx j k 0).val = (j 0).val := by
  unfold DotDims.lhsIdx
  rw [dif_neg List.not_mem_nil, dif_pos (List.mem_singleton.mpr rfl)]
  rfl

/-- The right operand's column coordinate of a plain product is the result's column, whatever the contraction index. -/
theorem plain_rhsIdx_col {M K N : ℕ} (wf) (j : (⟨2, ![M, N]⟩ : Shape).Idx)
    (k : (⟨[1], [0], [0], [1], [], [], wf⟩ : DotDims ⟨2, ![M, K]⟩ ⟨2, ![K, N]⟩ ⟨2, ![M, N]⟩).contr.Idx) :
    ((⟨[1], [0], [0], [1], [], [], wf⟩ : DotDims ⟨2, ![M, K]⟩ ⟨2, ![K, N]⟩ ⟨2, ![M, N]⟩).rhsIdx j k 1).val = (j 1).val := by
  unfold DotDims.rhsIdx
  rw [dif_neg List.not_mem_nil, dif_pos (List.mem_singleton.mpr rfl)]
  rfl

/-- The contraction sum of a plain product, re-indexed by the shared axis's coordinate. -/
theorem plain_contr_sum {M K N : ℕ} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 p q)
      ((contrEquiv1 (⟨[1], [0], [0], [1], [], [], wf⟩ : DotDims ⟨2, ![M, K]⟩ ⟨2, ![K, N]⟩ ⟨2, ![M, N]⟩) K rfl rfl).symm k) = ix2 p k :=
    funext fun a => Fin.ext (by
      match a with
      | ⟨0, _⟩ => exact plain_lhsIdx_row wf _ _
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 p q)
      ((contrEquiv1 (⟨[1], [0], [0], [1], [], [], wf⟩ : DotDims ⟨2, ![M, K]⟩ ⟨2, ![K, N]⟩ ⟨2, ![M, N]⟩) K rfl rfl).symm k) = ix2 k q :=
    funext fun a => Fin.ext (by
      match a with
      | ⟨0, _⟩ => exact (DotDims.rhsIdx_val_of_single _ rfl _ _).trans hk
      | ⟨1, _⟩ => exact plain_rhsIdx_col wf _ _)
  rw [el, er]

/-- The matrix unit's plain product into a zero accumulator, at `(p, q)`. -/
theorem matmul_zero_plain_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  rw [Ideal.matmul_constant_zero_apply]
  exact plain_contr_sum d hlc hrc hln hrn hlb hrb l r p q

/-- The host's plain `dot_general`, at `(p, q)`. -/
theorem dotGeneral_plain_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  rw [Ideal.dotGeneral_apply]
  exact plain_contr_sum d hlc hrc hln hrn hlb hrb l r p q

end Idealize.ShloMosaic.ValueIdx
-- ==== Proof.LibColumnBroadcast.lean ====
/-
  A column broadcast over many columns, read at an index: a `[a, 1]` array broadcast to `[a, b]` reads, at `(p, c)`, the
  operand's row `p` at its one column. (The companion of the library's row form `broadcastTo_1b_ab_apply`; extents general.)
-/
import Idealize.ShloMosaic.Lib.ValueLayout

namespace Idealize.ShloMosaic.ValueIdx

open Idealize.ShloMosaic

variable {α : Type}

/-- A `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.FirstMap.lean ====
/-
  The first map of the network as one function of the arrays it finds.

  The 100000 nodes are processed in 25 blocks of 4000 rows. On one block, every entry of a node's feature row is
  scaled by the node's own factor and the scaled rows are multiplied with the whole weight matrix. Read at an entry,
  a block's result is the sum over the 256 input features of (feature entry times node factor) times weight; the
  block of point `t` holds the nodes `4000 t … 4000 t + 3999`, and the 25 blocks tile the result. So the result
  array is the linear map of the features, the node factors and the weights, entry by entry.
-/
import proofs.«113927_j56487409877510_2_alg».proof.Proof.Gen.KernelIdeal.Frame
import proofs.«113927_j56487409877510_2_alg».proof.Proof.Spec
import proofs.«113927_j56487409877510_2_alg».proof.Proof.LibPlainProduct
import proofs.«113927_j56487409877510_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.FirstMap

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable (V : (c : Dev nD) → (b : Ref sig .tc) → Buf (Elt Ideal) ((c : Thread nD τ).loc b))

/-- The zero offsets of a whole block, however they are spelt. -/
theorem zero_offsets : (![0, 0] : Fin 2 → Nat) = fun _ => 0 := funext fun a => by fin_cases a <;> rfl

/-! ## One block of rows: the arithmetic at an entry -/

/-- The entry `(p, q)` of what one block of 4000 rows computes: each entry of row `p` is scaled by the row's factor,
    and the scaled row is multiplied with column `q` of the weights, the products summed over the 256 input features. -/
theorem payload_apply (x0 : Vec Ideal S4000x256 .f32) (x1 : Vec Ideal S4000x1 .f32) (x2 : Vec Ideal S256x128 .f32)
    (p : Fin 4000) (q : Fin 128) :
    k0_pay1 x0 x1 x2 (ix2 p q) = ∑ k : Fin 256, (x0 (ix2 p k) * x1 (ix2 p (0 : Fin 1))) * x2 (ix2 k q) := by
  unfold k0_pay1
  rw [truncf_apply]
  refine (matmul_zero_plain_apply dot_S4000x256_S256x128_S4000x128_1_0_0_1_n_n rfl rfl rfl rfl rfl rfl none _ _ p q).trans ?_
  refine Finset.sum_congr rfl fun k _ => ?_
  rw [truncf_apply, truncf_apply, mulf_apply, broadcastTo_a1_ab_apply, shapeCast_self]

/-! ## The blocks' places in the arrays -/

/-- The printed index maps over the 25 grid points: the three row-blocked windows sit at block `t` of the rows and
    block 0 of the columns; the weights' window is the whole array. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry `(p, k)` of the features' block at point `t` is the features' entry of node `4000 t + p`. -/
theorem features_block (c : Dev nD) (t : Fin cfg0.N) (p : Fin 4000) (k : Fin 256) (r : Fin 100000)
    (hr : r.val = t.val * 4000 + p.val) :
    (iblk0 V c 0 t : Vec Ideal S4000x256 .f32) (ix2 p k) = (V c main_arg0 : S100000x256.Idx → EReal) (ix2 r k) := by
  obtain ⟨e0, e1, -⟩ := index_facts t
  show V c main_arg0 (((cfg0.win 0).blk t).view.emb (ix2 p k)) = _
  congr 1
  funext a; apply Fin.ext
  match a with
  | ⟨0, _⟩ => show win0_0.index t (0 : Fin 2) * 4000 + 1 * p.val = r.val; omega
  | ⟨1, _⟩ => show win0_0.index t (1 : Fin 2) * 256 + 1 * k.val = k.val; omega

/-- Entry `(p, 0)` of the node factors' block at point `t` is the factor of node `4000 t + p`. -/
theorem factor_block (c : Dev nD) (t : Fin cfg0.N) (p : Fin 4000) (r : Fin 100000)
    (hr : r.val = t.val * 4000 + p.val) :
    (iblk0 V c 1 t : Vec Ideal S4000x1 .f32) (ix2 p (0 : Fin 1)) = (V c main_v11 : S100000x1.Idx → EReal) (ix2 r (0 : Fin 1)) := by
  obtain ⟨-, -, e2, e3, -⟩ := index_facts t
  show V c main_v11 (((cfg0.win 1).blk t).view.emb (ix2 p (0 : Fin 1))) = _
  congr 1
  funext a; apply Fin.ext
  match a with
  | ⟨0, _⟩ => show win0_1.index t (0 : Fin 2) * 4000 + 1 * p.val = r.val; omega
  | ⟨1, _⟩ => show win0_1.index t (1 : Fin 2) * 1 + 1 * 0 = 0; omega

/-- The weights' block at every point is the whole weight matrix. -/
theorem weights_block (c : Dev nD) (t : Fin cfg0.N) (k : Fin 256) (q : Fin 128) :
    (iblk0 V c 2 t : Vec Ideal S256x128 .f32) (ix2 k q) = (V c main_arg1 : S256x128.Idx → EReal) (ix2 k q) := by
  obtain ⟨-, -, -, -, e4, e5, -⟩ := index_facts t
  show V c main_arg1 (((cfg0.win 2).blk t).view.emb (ix2 k q)) = _
  congr 1
  funext a; apply Fin.ext
  match a with
  | ⟨0, _⟩ => show win0_2.index t (0 : Fin 2) * 256 + 1 * k.val = k.val; omega
  | ⟨1, _⟩ => show win0_2.index t (1 : Fin 2) * 128 + 1 * q.val = q.val; omega

/-- Entry `(p, q)` of the result's block at point `t` sits at node `4000 t + p`, feature `q`, of the result. -/
theorem result_place (t : Fin cfg0.N) (p : Fin 4000) (q : Fin 128) (r : Fin 100000)
    (hr : r.val = t.val * 4000 + p.val) :
    ((cfg0.win 3).blk t).view.emb (ix2 p q) = (ix2 r q : S100000x128.Idx) := by
  obtain ⟨-, -, -, -, -, -, e6, e7⟩ := index_facts t
  funext a; apply Fin.ext
  match a with
  | ⟨0, _⟩ => show win0_3.index t (0 : Fin 2) * 4000 + 1 * p.val = r.val; omega
  | ⟨1, _⟩ => show win0_3.index t (1 : Fin 2) * 128 + 1 * q.val = q.val; omega

/-! ## What a point writes back -/

/-- What point `t` writes back is block `t` of the linear map of the arrays the region finds. -/
theorem flushed_eq (c : Dev nD) (t : Fin cfg0.N) :
    (dat0 (F := Ideal) V c).flushed 3 t
      = ((cfg0.win 3).blk t).view.read (Elt Ideal)
          (Cert.Gcn.linCol (V c main_arg0 : S100000x256.Idx → EReal) (V c main_v11 : S100000x1.Idx → EReal)
            (V c main_arg1 : S256x128.Idx → EReal)) := by
  show (cfg0.win 3).cut (grid0.coords t) ((dat0 V c).after 3 t) = _
  rw [after0_3]
  unfold out0_3
  rw [View.canon_unit_zero zero_offsets]
  simp only [View.ld_unit_zero (S := S4000x256) zero_offsets, View.ld_unit_zero (S := S4000x1) zero_offsets,
    View.ld_unit_zero (S := S256x128) zero_offsets]
  funext j
  obtain ⟨p, q, rfl⟩ : ∃ (p : Fin 4000) (q : Fin 128), j = (ix2 p q : S4000x128.Idx) :=
    ⟨j 0, j 1, eq_ix2 (n0 := 4000) (n1 := 128) j⟩
  have hN : cfg0.N = 25 := N_0
  have hrow : t.val * 4000 + p.val < 100000 := by have := t.isLt; have := p.isLt; omega
  refine (payload_apply _ _ _ p q).trans ?_
  show _ = Cert.Gcn.linCol _ _ _ (((cfg0.win 3).blk t).view.emb (ix2 p q))
  rw [result_place t p q ⟨t.val * 4000 + p.val, hrow⟩ rfl, Cert.Gcn.linCol_ix2]
  refine Finset.sum_congr rfl fun k _ => ?_
  rw [features_block V c t p k ⟨t.val * 4000 + p.val, hrow⟩ rfl, factor_block V c t p ⟨t.val * 4000 + p.val, hrow⟩ rfl,
    weights_block V c t k q]

/-! ## The 25 blocks tile the result -/

/-- An index of the result is in point `t`'s block iff each coordinate is in the block's range on its axis. -/
theorem mem_block (t : Fin cfg0.N) (i : S100000x128.Idx) :
    i ∈ ((cfg0.win 3).blk t).view.set
      ↔ ∀ a : Fin 2, win0_3.index t a * S4000x128.size a ≤ (i a).val
          ∧ (i a).val < win0_3.index t a * S4000x128.size a + S4000x128.size a := by
  show i ∈ ((View.whole main_v21).slice (win0_3.rect t)).set ↔ _
  rw [View.set_slice_whole, Rect.mem_set_unit]
  exact Iff.rfl

/-- Every entry of the result is written: node `r` is in the block of point `r / 4000`. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, -, -, e6, e7⟩ := index_facts t
  refine ⟨t, flush0_3 t, ?_⟩
  rw [mem_block]
  intro a
  match a with
  | ⟨0, _⟩ =>
    show win0_3.index t (0 : Fin 2) * 4000 ≤ (i 0).val ∧ (i 0).val < win0_3.index t (0 : Fin 2) * 4000 + 4000
    omega
  | ⟨1, _⟩ =>
    show win0_3.index t (1 : Fin 2) * 128 ≤ (i 1).val ∧ (i 1).val < win0_3.index t (1 : Fin 2) * 128 + 128
    omega

/-! ## The array after the region -/

/-- The first map as one function of the arrays it finds: the result array ends holding the linear map of the features,
    scaled node by node, with the weights. -/
theorem array (c : Dev nD) :
    (dat0 (F := Ideal) V c).arrAt 3 cfg0.N
      = Cert.Gcn.linCol (V c main_arg0 : S100000x256.Idx → EReal) (V c main_v11 : S100000x1.Idx → EReal)
          (V c main_arg1 : S256x128.Idx → EReal) :=
  (dat0 (F := Ideal) V c).arrAt_eq_of_cover 3 _ (fun t _ => flushed_eq V c t) covered

end Cert.KernelIdeal.FirstMap

end
-- ==== Proof.SecondMap.lean ====
/-
  The second map of the network as one function of the arrays it finds.

  The 100000 nodes are processed in 25 blocks of 4000 rows. On one block, the aggregated entry of a node and a feature
  is scaled by the node's destination factor, the feature's bias is added and the positive part is taken; the
  activation is scaled by the node's source factor and the scaled rows are multiplied with the whole second weight
  matrix. Read at an entry, a block's result is the sum over the 128 features of (activation times source factor)
  times weight; the block of point `t` holds the nodes `4000 t … 4000 t + 3999`, and the 25 blocks tile the result.
  So the result array is the linear map of the activation of the aggregate, entry by entry.
-/
import proofs.«113927_j56487409877510_2_alg».proof.Proof.Gen.KernelIdeal.Frame
import proofs.«113927_j56487409877510_2_alg».proof.Proof.Spec
import proofs.«113927_j56487409877510_2_alg».proof.Proof.LibPlainProduct
import proofs.«113927_j56487409877510_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.SecondMap

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable (V : (c : Dev nD) → (b : Ref sig .tc) → Buf (Elt Ideal) ((c : Thread nD τ).loc b))

/-- The zero offsets of a whole block, however they are spelt. -/
theorem zero_offsets : (![0, 0] : Fin 2 → Nat) = fun _ => 0 := funext fun a => by fin_cases a <;> rfl

/-! ## One block of rows: the arithmetic at an entry -/

/-- The entry `(p, q)` of what one block of 4000 rows computes: the aggregated entry of row `p` and feature `k` is
    scaled by the row's destination factor, the feature's bias is added and the positive part taken; that activation is
    scaled by the row's source factor and multiplied with column `q` of the weights, summed over the 128 features. -/
theorem payload_apply (x0 : Vec Ideal S4000x128 .f32) (x1 : Vec Ideal S4000x1 .f32) (x2 : Vec Ideal S1x128 .f32)
    (x3 : Vec Ideal S4000x1 .f32) (x4 : Vec Ideal S128x128 .f32) (p : Fin 4000) (q : Fin 128) :
    k1_pay1 x0 x1 x2 x3 x4 (ix2 p q)
      = ∑ k : Fin 128, (max (x0 (ix2 p k) * x1 (ix2 p (0 : Fin 1)) + x2 (ix2 (0 : Fin 1) k)) (Ideal.ofBits .f32 0x00000000#32)
          * x3 (ix2 p (0 : Fin 1))) * x4 (ix2 k q) := by
  unfold k1_pay1
  rw [truncf_apply]
  refine (matmul_zero_plain_apply dot_S4000x128_S128x128_S4000x128_1_0_0_1_n_n rfl rfl rfl rfl rfl rfl none _ _ p q).trans ?_
  refine Finset.sum_congr rfl fun k _ => ?_
  rw [truncf_apply, truncf_apply, mulf_apply, maximumf_apply, addf_apply, mulf_apply, broadcast_apply,
    broadcastTo_1b_ab_apply, broadcastTo_a1_ab_apply, broadcastTo_a1_ab_apply]
  simp only [shapeCast_self]
  rfl

/-! ## The blocks' places in the arrays -/

/-- The printed index maps over the 25 grid points: the four row-blocked windows sit at block `t` of the rows and
    block 0 of the columns; the bias row's and the weights' windows are their whole arrays. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry `(p, k)` of the aggregate's block at point `t` is the aggregate's entry of node `4000 t + p`. -/
theorem aggregate_block (c : Dev nD) (t : Fin cfg1.N) (p : Fin 4000) (k : Fin 128) (r : Fin 100000)
    (hr : r.val = t.val * 4000 + p.val) :
    (iblk1 V c 0 t : Vec Ideal S4000x128 .f32) (ix2 p k) = (V c main_v32 : S100000x128.Idx → EReal) (ix2 r k) := by
  obtain ⟨e0, e1, -⟩ := index_facts t
  show V c main_v32 (((cfg1.win 0).blk t).view.emb (ix2 p k)) = _
  congr 1
  funext a; apply Fin.ext
  match a with
  | ⟨0, _⟩ => show win1_0.index t (0 : Fin 2) * 4000 + 1 * p.val = r.val; omega
  | ⟨1, _⟩ => show win1_0.index t (1 : Fin 2) * 128 + 1 * k.val = k.val; omega

/-- Entry `(p, 0)` of the destination factors' block at point `t` is the factor of node `4000 t + p`. -/
theorem destination_block (c : Dev nD) (t : Fin cfg1.N) (p : Fin 4000) (r : Fin 100000)
    (hr : r.val = t.val * 4000 + p.val) :
    (iblk1 V c 1 t : Vec Ideal S4000x1 .f32) (ix2 p (0 : Fin 1)) = (V c main_v16 : S100000x1.Idx → EReal) (ix2 r (0 : Fin 1)) := by
  obtain ⟨-, -, e2, e3, -⟩ := index_facts t
  show V c main_v16 (((cfg1.win 1).blk t).view.emb (ix2 p (0 : Fin 1))) = _
  congr 1
  funext a; apply Fin.ext
  match a with
  | ⟨0, _⟩ => show win1_1.index t (0 : Fin 2) * 4000 + 1 * p.val = r.val; omega
  | ⟨1, _⟩ => show win1_1.index t (1 : Fin 2) * 1 + 1 * 0 = 0; omega

/-- The bias row's block at every point is the whole bias row. -/
theorem bias_block (c : Dev nD) (t : Fin cfg1.N) (k : Fin 128) :
    (iblk1 V c 2 t : Vec Ideal S1x128 .f32) (ix2 (0 : Fin 1) k) = (V c main_v17 : S1x128.Idx → EReal) (ix2 (0 : Fin 1) k) := by
  obtain ⟨-, -, -, -, e4, e5, -⟩ := index_facts t
  show V c main_v17 (((cfg1.win 2).blk t).view.emb (ix2 (0 : Fin 1) k)) = _
  congr 1
  funext a; apply Fin.ext
  match a with
  | ⟨0, _⟩ => show win1_2.index t (0 : Fin 2) * 1 + 1 * 0 = 0; omega
  | ⟨1, _⟩ => show win1_2.index t (1 : Fin 2) * 128 + 1 * k.val = k.val; omega

/-- Entry `(p, 0)` of the source factors' block at point `t` is the factor of node `4000 t + p`. -/
theorem source_block (c : Dev nD) (t : Fin cfg1.N) (p : Fin 4000) (r : Fin 100000)
    (hr : r.val = t.val * 4000 + p.val) :
    (iblk1 V c 3 t : Vec Ideal S4000x1 .f32) (ix2 p (0 : Fin 1)) = (V c main_v11 : S100000x1.Idx → EReal) (ix2 r (0 : Fin 1)) := by
  obtain ⟨-, -, -, -, -, -, e6, e7, -⟩ := index_facts t
  show V c main_v11 (((cfg1.win 3).blk t).view.emb (ix2 p (0 : Fin 1))) = _
  congr 1
  funext a; apply Fin.ext
  match a with
  | ⟨0, _⟩ => show win1_3.index t (0 : Fin 2) * 4000 + 1 * p.val = r.val; omega
  | ⟨1, _⟩ => show win1_3.index t (1 : Fin 2) * 1 + 1 * 0 = 0; omega

/-- The weights' block at every point is the whole weight matrix. -/
theorem weights_block (c : Dev nD) (t : Fin cfg1.N) (k : Fin 128) (q : Fin 128) :
    (iblk1 V c 4 t : Vec Ideal S128x128 .f32) (ix2 k q) = (V c main_arg3 : S128x128.Idx → EReal) (ix2 k q) := by
  obtain ⟨-, -, -, -, -, -, -, -, e8, e9, -⟩ := index_facts t
  show V c main_arg3 (((cfg1.win 4).blk t).view.emb (ix2 k q)) = _
  congr 1
  funext a; apply Fin.ext
  match a with
  | ⟨0, _⟩ => show win1_4.index t (0 : Fin 2) * 128 + 1 * k.val = k.val; omega
  | ⟨1, _⟩ => show win1_4.index t (1 : Fin 2) * 128 + 1 * q.val = q.val; omega

/-- Entry `(p, q)` of the result's block at point `t` sits at node `4000 t + p`, feature `q`, of the result. -/
theorem result_place (t : Fin cfg1.N) (p : Fin 4000) (q : Fin 128) (r : Fin 100000)
    (hr : r.val = t.val * 4000 + p.val) :
    ((cfg1.win 5).blk t).view.emb (ix2 p q) = (ix2 r q : S100000x128.Idx) := by
  obtain ⟨-, -, -, -, -, -, -, -, -, -, e10, e11⟩ := index_facts t
  funext a; apply Fin.ext
  match a with
  | ⟨0, _⟩ => show win1_5.index t (0 : Fin 2) * 4000 + 1 * p.val = r.val; omega
  | ⟨1, _⟩ => show win1_5.index t (1 : Fin 2) * 128 + 1 * q.val = q.val; omega

/-! ## What a point writes back -/

/-- What point `t` writes back is block `t` of the linear map of the activation of the arrays the region finds. -/
theorem flushed_eq (c : Dev nD) (t : Fin cfg1.N) :
    (dat1 (F := Ideal) V c).flushed 5 t
      = ((cfg1.win 5).blk t).view.read (Elt Ideal)
          (Cert.Gcn.linCol
            (Cert.Gcn.actCol (V c main_v32 : S100000x128.Idx → EReal) (V c main_v16 : S100000x1.Idx → EReal)
              (V c main_v17 : S1x128.Idx → EReal))
            (V c main_v11 : S100000x1.Idx → EReal) (V c main_arg3 : S128x128.Idx → EReal)) := by
  show (cfg1.win 5).cut (grid1.coords t) ((dat1 V c).after 5 t) = _
  rw [after1_5]
  unfold out1_5
  rw [View.canon_unit_zero zero_offsets]
  simp only [View.ld_unit_zero (S := S4000x128) zero_offsets, View.ld_unit_zero (S := S4000x1) zero_offsets,
    View.ld_unit_zero (S := S1x128) zero_offsets, View.ld_unit_zero (S := S128x128) zero_offsets]
  funext j
  obtain ⟨p, q, rfl⟩ : ∃ (p : Fin 4000) (q : Fin 128), j = (ix2 p q : S4000x128.Idx) :=
    ⟨j 0, j 1, eq_ix2 (n0 := 4000) (n1 := 128) j⟩
  have hN : cfg1.N = 25 := N_1
  have hrow : t.val * 4000 + p.val < 100000 := by have := t.isLt; have := p.isLt; omega
  refine (payload_apply _ _ _ _ _ p q).trans ?_
  show _ = Cert.Gcn.linCol _ _ _ (((cfg1.win 5).blk t).view.emb (ix2 p q))
  rw [result_place t p q ⟨t.val * 4000 + p.val, hrow⟩ rfl, Cert.Gcn.linCol_ix2]
  refine Finset.sum_congr rfl fun k _ => ?_
  rw [Cert.Gcn.actCol_ix2, aggregate_block V c t p k ⟨t.val * 4000 + p.val, hrow⟩ rfl,
    destination_block V c t p ⟨t.val * 4000 + p.val, hrow⟩ rfl, bias_block V c t k,
    source_block V c t p ⟨t.val * 4000 + p.val, hrow⟩ rfl, weights_block V c t k q]

/-! ## The 25 blocks tile the result -/

/-- An index of the result is in point `t`'s block iff each coordinate is in the block's range on its axis. -/
theorem mem_block (t : Fin cfg1.N) (i : S100000x128.Idx) :
    i ∈ ((cfg1.win 5).blk t).view.set
      ↔ ∀ a : Fin 2, win1_5.index t a * S4000x128.size a ≤ (i a).val
          ∧ (i a).val < win1_5.index t a * S4000x128.size a + S4000x128.size a := by
  show i ∈ ((View.whole main_v33).slice (win1_5.rect t)).set ↔ _
  rw [View.set_slice_whole, Rect.mem_set_unit]
  exact Iff.rfl

/-- Every entry of the result is written: node `r` is in the block of point `r / 4000`. -/
theorem covered (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 25 := N_1
  obtain ⟨t, ht⟩ : ∃ t : Fin cfg1.N, t.val = (i 0).val / 4000 := ⟨⟨(i 0).val / 4000, by rw [hN]; omega⟩, rfl⟩
  obtain ⟨-, -, -, -, -, -, -, -, -, -, e10, e11⟩ := index_facts t
  refine ⟨t, flush1_5 t, ?_⟩
  rw [mem_block]
  intro a
  match a with
  | ⟨0, _⟩ =>
    show win1_5.index t (0 : Fin 2) * 4000 ≤ (i 0).val ∧ (i 0).val < win1_5.index t (0 : Fin 2) * 4000 + 4000
    omega
  | ⟨1, _⟩ =>
    show win1_5.index t (1 : Fin 2) * 128 ≤ (i 1).val ∧ (i 1).val < win1_5.index t (1 : Fin 2) * 128 + 128
    omega

/-! ## The array after the region -/

/-- The second map as one function of the arrays it finds: the result array ends holding the linear map, with the
    second weights and the source factors, of the activation of the aggregate. -/
theorem array (c : Dev nD) :
    (dat1 (F := Ideal) V c).arrAt 5 cfg1.N
      = Cert.Gcn.linCol
          (Cert.Gcn.actCol (V c main_v32 : S100000x128.Idx → EReal) (V c main_v16 : S100000x1.Idx → EReal)
            (V c main_v17 : S1x128.Idx → EReal))
          (V c main_v11 : S100000x1.Idx → EReal) (V c main_arg3 : S128x128.Idx → EReal) :=
  (dat1 (F := Ideal) V c).arrAt_eq_of_cover 5 _ (fun t _ => flushed_eq V c t) covered

end Cert.KernelIdeal.SecondMap

end
-- ==== Proof.LibColumnReshape.lean ====
/-
  A vector recast as a one-column matrix, read at an index: an `[a]` array cast to `[a, 1]` reads, at `(p, u)`, the
  operand at `p`, whatever the unit coordinate `u` (row-major positions: `p · 1 + 0 = p`). The companion of the library's
  `shapeCast_a_1a_apply` (one row); extent general.
-/
import Idealize.ShloMosaic.Lib.ValueLayout

namespace Idealize.ShloMosaic.ValueIdx

open Idealize.ShloMosaic

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx
-- ==== Proof.ReadOut.lean ====
/-
  The third kernel (the read-out) as one function of the arrays it finds.

  At a grid point the body holds 4000 consecutive rows of the aggregated array, the same rows of the column of
  destination factors, the whole bias row, the whole row of read-out weights and the one-entry read-out bias. For each
  of its rows `p` it forms, feature by feature `k`, the aggregated entry times the row's factor plus the bias of `k`,
  multiplies by the read-out weight of `k`, adds these 128 numbers up along the row, and adds the read-out bias.
  The 25 grid points write 25 disjoint stretches of 4000 rows, which together are all 100000 rows; so the output
  array ends as that same expression of whole arrays, row by row.
-/
import proofs.«113927_j56487409877510_2_alg».proof.Proof.Gen.KernelIdeal.Frame
import proofs.«113927_j56487409877510_2_alg».proof.Proof.Spec
import proofs.«113927_j56487409877510_2_alg».proof.Proof.LibColumnReshape
import proofs.«113927_j56487409877510_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ReadOut

open Cert.KernelIdeal Cert.KernelIdeal.Gen Idealize.ShloMosaic Idealize.ShloMosaic.TcCoe Idealize.SL.Sem
open Idealize.ShloMosaic.ValueIdx
open Idealize.ShloMosaic.Pipeline (Dat)

/-- The offsets of a whole-buffer access are all zero. -/
theorem zero_offsets : (![0, 0] : Fin 2 → Nat) = fun _ => 0 := funext fun a => by fin_cases a <;> rfl

/-- The sum along a row of a `[4000, 128]` block, from the zero word, at row `p`: the 128 entries of the row added up. -/
theorem row_sum (src : FVec Ideal S4000x128 .f32) (p : Fin 4000) :
    multiReduction .add [1] S4000 src 0x00000000#32 reduces_S4000x128_S4000 (.inl rfl) rfl (ix1 p)
      = ∑ k : Fin 128, src (ix2 p k) := by
  refine (Ideal.multiReduction_add_single src 0x00000000#32 reduces_S4000x128_S4000 (.inl rfl) rfl (ix1 p)).trans ?_
  show ∑ k : Fin 128, src (reduces_S4000x128_S4000.lift (ix1 p) k) = _
  refine Finset.sum_congr rfl fun k _ => congrArg src ?_
  funext a
  apply Fin.ext
  match a with
  | ⟨0, _⟩ => rfl
  | ⟨1, _⟩ => rfl

/-- The body's stored value at row `p` of its block (the block has one column): the row's 128 products added up, plus
    the read-out bias. -/
theorem payload_apply (x0 : Vec Ideal S4000x128 .f32) (x1 : Vec Ideal S4000x1 .f32) (x2 x3 : Vec Ideal S1x128 .f32)
    (x4 : Vec Ideal S1x1 .f32) (p : Fin 4000) (u : Fin 1) :
    k2_pay1 x0 x1 x2 x3 x4 (ix2 p u)
      = (∑ k : Fin 128, (x0 (ix2 p k) * x1 (ix2 p (0 : Fin 1)) + x2 (ix2 (0 : Fin 1) k)) * x3 (ix2 (0 : Fin 1) k))
        + x4 (ix2 (0 : Fin 1) (0 : Fin 1)) := by
  obtain rfl : u = 0 := Subsingleton.elim _ _
  unfold k2_pay1
  simp only [shapeCast_self]
  rw [addf_apply, shapeCast_a_a1_apply, row_sum, broadcastTo_1b_ab_apply]
  refine congrArg (· + x4 (ix2 (0 : Fin 1) (0 : Fin 1))) (Finset.sum_congr rfl fun k _ => ?_)
  rw [mulf_apply, addf_apply, mulf_apply, broadcastTo_a1_ab_apply, broadcastTo_1b_ab_apply, broadcastTo_1b_ab_apply]

variable (V : (c : Dev nD) → (b : Ref sig .tc) → Buf (Elt Ideal) ((c : Thread nD τ).loc b))

/-- Where each window's block sits at grid point `t`: the three row-blocked windows (aggregated rows, factor column,
    output column) at block row `t`, the three small operands at their one block. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What grid point `t` writes back is rows `4000 t … 4000 t + 3999` of the read-out of the arrays the region finds. -/
theorem flushed_eq (c : Dev nD) (t : Fin cfg2.N) :
    (dat2 V c).flushed 5 t = ((cfg2.win 5).blk t).view.read (Elt Ideal)
      (Cert.Gcn.outCol (V c main_v44) (V c main_v16) (V c main_v18) (V c main_v19) (V c main_v20)) := by
  show (cfg2.win 5).cut (grid2.coords t) ((dat2 V c).after 5 t) = _
  rw [after2_5]
  unfold out2_5
  rw [View.canon_unit_zero zero_offsets]
  simp only [View.ld_unit_zero (S := S4000x128) zero_offsets, View.ld_unit_zero (S := S4000x1) zero_offsets,
    View.ld_unit_zero (S := S1x128) zero_offsets, View.ld_unit_zero (S := S1x1) zero_offsets]
  obtain ⟨e00, e01, e10, e11, e20, e21, e30, e31, e40, e41, e50, e51⟩ := block_indices t
  have hN : cfg2.N = 25 := N_2
  have ht : t.val < 25 := by have := t.isLt; omega
  funext j
  obtain ⟨p, u, rfl⟩ : ∃ (p : Fin 4000) (u : Fin 1), j = ix2 p u := ⟨j 0, j 1, eq_ix2 j⟩
  have hp := p.isLt
  have hu := u.isLt
  show k2_pay1 (iblk2 V c 0 t) (iblk2 V c 1 t) (iblk2 V c 2 t) (iblk2 V c 3 t) (iblk2 V c 4 t) (ix2 p u)
    = Cert.Gcn.outCol (V c main_v44) (V c main_v16) (V c main_v18) (V c main_v19) (V c main_v20) (((cfg2.win 5).blk t).view.emb (ix2 p u))
  refine (payload_apply (iblk2 V c 0 t) (iblk2 V c 1 t) (iblk2 V c 2 t) (iblk2 V c 3 t) (iblk2 V c 4 t) p u).trans ?_
  have hE : ((cfg2.win 5).blk t).view.emb (ix2 p u) = ix2 (⟨t.val * 4000 + p.val, by omega⟩ : Fin 100000) (0 : Fin 1) := by
    funext a; apply Fin.ext
    match a with
    | ⟨0, _⟩ => show win2_5.index t (0 : Fin 2) * 4000 + 1 * p.val = t.val * 4000 + p.val; omega
    | ⟨1, _⟩ => show win2_5.index t (1 : Fin 2) * 1 + 1 * u.val = 0; omega
  rw [hE, Cert.Gcn.outCol_ix2]
  have h1 : iblk2 V c 1 t (ix2 p (0 : Fin 1)) = V c main_v16 (ix2 (⟨t.val * 4000 + p.val, by omega⟩ : Fin 100000) (0 : Fin 1)) := by
    show V c main_v16 (((cfg2.win 1).blk t).view.emb (ix2 p (0 : Fin 1))) = _
    refine congrArg (V c main_v16) ?_
    funext a; apply Fin.ext
    match a with
    | ⟨0, _⟩ => show win2_1.index t (0 : Fin 2) * 4000 + 1 * p.val = t.val * 4000 + p.val; omega
    | ⟨1, _⟩ => show win2_1.index t (1 : Fin 2) * 1 + 1 * 0 = 0; omega
  have h4 : iblk2 V c 4 t (ix2 (0 : Fin 1) (0 : Fin 1)) = V c main_v20 (ix2 (0 : Fin 1) (0 : Fin 1)) := by
    show V c main_v20 (((cfg2.win 4).blk t).view.emb (ix2 (0 : Fin 1) (0 : Fin 1))) = _
    refine congrArg (V c main_v20) ?_
    funext a; apply Fin.ext
    match a with
    | ⟨0, _⟩ => show win2_4.index t (0 : Fin 2) * 1 + 1 * 0 = 0; omega
    | ⟨1, _⟩ => show win2_4.index t (1 : Fin 2) * 1 + 1 * 0 = 0; omega
  rw [h1, h4]
  refine congrArg (· + V c main_v20 (ix2 (0 : Fin 1) (0 : Fin 1))) (Finset.sum_congr rfl fun k _ => ?_)
  have hk := k.isLt
  have h0 : iblk2 V c 0 t (ix2 p k) = V c main_v44 (ix2 (⟨t.val * 4000 + p.val, by omega⟩ : Fin 100000) k) := by
    show V c main_v44 (((cfg2.win 0).blk t).view.emb (ix2 p k)) = _
    refine congrArg (V c main_v44) ?_
    funext a; apply Fin.ext
    match a with
    | ⟨0, _⟩ => show win2_0.index t (0 : Fin 2) * 4000 + 1 * p.val = t.val * 4000 + p.val; omega
    | ⟨1, _⟩ => show win2_0.index t (1 : Fin 2) * 128 + 1 * k.val = k.val; omega
  have h2 : iblk2 V c 2 t (ix2 (0 : Fin 1) k) = V c main_v18 (ix2 (0 : Fin 1) k) := by
    show V c main_v18 (((cfg2.win 2).blk t).view.emb (ix2 (0 : Fin 1) k)) = _
    refine congrArg (V c main_v18) ?_
    funext a; apply Fin.ext
    match a with
    | ⟨0, _⟩ => show win2_2.index t (0 : Fin 2) * 1 + 1 * 0 = 0; omega
    | ⟨1, _⟩ => show win2_2.index t (1 : Fin 2) * 128 + 1 * k.val = k.val; omega
  have h3 : iblk2 V c 3 t (ix2 (0 : Fin 1) k) = V c main_v19 (ix2 (0 : Fin 1) k) := by
    show V c main_v19 (((cfg2.win 3).blk t).view.emb (ix2 (0 : Fin 1) k)) = _
    refine congrArg (V c main_v19) ?_
    funext a; apply Fin.ext
    match a with
    | ⟨0, _⟩ => show win2_3.index t (0 : Fin 2) * 1 + 1 * 0 = 0; omega
    | ⟨1, _⟩ => show win2_3.index t (1 : Fin 2) * 128 + 1 * k.val = k.val; omega
  rw [h0, h2, h3]

/-- An index of the output array is in point `t`'s block iff each coordinate is in the block's range on its axis. -/
theorem mem_block (t : Fin cfg2.N) (i : S100000x1.Idx) :
    i ∈ ((cfg2.win 5).blk t).view.set ↔ ∀ a : Fin 2, win2_5.index t a * S4000x1.size a ≤ (i a).val
      ∧ (i a).val < win2_5.index t a * S4000x1.size a + S4000x1.size a := by
  show i ∈ ((View.whole main_v45).slice (win2_5.rect t)).set ↔ _
  rw [View.set_slice_whole, Rect.mem_set_unit]
  exact Iff.rfl

/-- THE OUTPUT ARRAY after the region: the read-out of the arrays the region finds, all 100000 rows (row `r` is written
    by grid point `r / 4000`). -/
theorem array (c : Dev nD) :
    (dat2 V c).arrAt 5 cfg2.N
      = Cert.Gcn.outCol (V c main_v44) (V c main_v16) (V c main_v18) (V c main_v19) (V c main_v20) :=
  (dat2 V c).arrAt_eq_of_cover 5 _ (fun t _ => flushed_eq V c t) fun i => by
    have hi0 : (i 0 : Nat) < 100000 := (i 0).isLt
    have hi1 : (i 1 : Nat) < 1 := (i 1).isLt
    have hN : cfg2.N = 25 := N_2
    obtain ⟨-, -, -, -, -, -, -, -, -, -, e50, e51⟩ := block_indices (⟨(i 0 : Nat) / 4000, by omega⟩ : Fin cfg2.N)
    refine ⟨⟨(i 0 : Nat) / 4000, by omega⟩, flush2_5 _, ?_⟩
    rw [mem_block]
    intro a
    match a with
    | ⟨0, _⟩ =>
      show win2_5.index ⟨(i 0 : Nat) / 4000, _⟩ (0 : Fin 2) * 4000 ≤ (i 0 : Nat)
        ∧ (i 0 : Nat) < win2_5.index ⟨(i 0 : Nat) / 4000, _⟩ (0 : Fin 2) * 4000 + 4000
      rw [e50]; show (i 0 : Nat) / 4000 * 4000 ≤ (i 0 : Nat) ∧ (i 0 : Nat) < (i 0 : Nat) / 4000 * 4000 + 4000; omega
    | ⟨1, _⟩ =>
      show win2_5.index ⟨(i 0 : Nat) / 4000, _⟩ (1 : Fin 2) * 1 ≤ (i 1 : Nat)
        ∧ (i 1 : Nat) < win2_5.index ⟨(i 0 : Nat) / 4000, _⟩ (1 : Fin 2) * 1 + 1
      rw [e51]; omega

end Cert.KernelIdeal.ReadOut

end
-- ==== Proof.KernelValue.lean ====
/-
  What the idealized kernel program leaves in its result array, as the network of the arguments.

  The program's buffers are followed from the launch to the return through its six stretches: host operations,
  the first kernel, host operations, the second kernel, host operations, the third kernel. The first stretch
  computes the two node-factor vectors (from the two edge-end lists) and re-lays them, the two bias vectors, the
  read-out column and the read-out bias as the columns, rows and the one-entry matrix the kernels read. Each kernel
  region replaces its output array by one function of the arrays it finds (the three sibling modules) and leaves
  every other buffer alone. The second and third host stretches aggregate the previous kernel's output over the
  edges: gather the rows named by one edge-end list, widen them, and add them into zeros at the rows named by the
  other. Reading every buffer the last kernel needs back through these stretches gives the result as
  `Cert.Gcn.net` of the arguments, the two factor vectors and the aggregation.
-/
import proofs.«113927_j56487409877510_2_alg».proof.Proof.Gen.KernelIdeal.Frame
import proofs.«113927_j56487409877510_2_alg».proof.Proof.Spec
import proofs.«113927_j56487409877510_2_alg».proof.Proof.FirstMap
import proofs.«113927_j56487409877510_2_alg».proof.Proof.SecondMap
import proofs.«113927_j56487409877510_2_alg».proof.Proof.ReadOut
import proofs.«113927_j56487409877510_2_alg».proof.Proof.LibColumnReshape
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

/-! ## The host side's two functions of the edge lists -/

/-- A node-factor vector from one edge-end list `e`: count, for every node, the edges that name it (ones added into
    zeros at the named nodes), raise the count to at least one, and take it to the power the host's literal names
    (minus one half). -/
def factor (e : (⟨S1600000, .i32⟩ : BufTy).Contents (Elt Ideal)) : (⟨S100000, .f32⟩ : BufTy).Contents (Elt Ideal) :=
  Host.powf (F := Ideal)
    (maximumf
      (Host.scatterAdd (F := Ideal) (φ := .f32) scatter_S100000_S1600000x1_S1600000_n_0_0_1
        (broadcastInDim S100000 ![] bcast_S_S100000 (constant (F := Ideal) S_ .f32 0x00000000#32))
        (broadcastInDim S1600000x1 ![0] bcast_S1600000_S1600000x1_0 e)
        (broadcastInDim S1600000 ![] bcast_S_S1600000 (constant (F := Ideal) S_ .f32 0x3F800000#32)))
      (broadcastInDim S100000 ![] bcast_S_S100000 (constant (F := Ideal) S_ .f32 0x3F800000#32)))
    (broadcastInDim S100000 ![] bcast_S_S100000 (constant (F := Ideal) S_ .f32 0xBF000000#32))

/-- The aggregation over the edges of an array `a` of node rows: gather the rows the source list names (a negative
    entry counted from the end), widen them, and add them into zeros at the rows the destination list names. -/
def aggr (src dst : (⟨S1600000, .i32⟩ : BufTy).Contents (Elt Ideal)) (a : (⟨S100000x128, .bf16⟩ : BufTy).Contents (Elt Ideal)) :
    (⟨S100000x128, .f32⟩ : BufTy).Contents (Elt Ideal) :=
  Host.scatterAdd (F := Ideal) (φ := .f32) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (extf .f32
      (Host.gather gather_S100000x128_S1600000x1_S1600000x128_1_0_n_n_0_1_1128 a
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      bitsLt_bf16_f32)

/-! ## The re-laid small operands -/

/-- A vector cast to a column is the vector laid down the column. -/
theorem cast_col {n : ℕ} (v : (⟨1, ![n]⟩ : Shape).Idx → EReal) (h : (⟨1, ![n]⟩ : Shape).ShapeCasts ⟨2, ![n, 1]⟩) :
    shapeCast ⟨2, ![n, 1]⟩ v h = Cert.Gcn.colOf v := by
  funext i
  obtain ⟨p, u, rfl⟩ : ∃ (p : Fin n) (u : Fin 1), i = ix2 p u := ⟨i 0, i 1, eq_ix2 i⟩
  exact shapeCast_a_a1_apply v h p u

/-- A vector cast to a row is the vector laid along the row. -/
theorem cast_row {n : ℕ} (v : (⟨1, ![n]⟩ : Shape).Idx → EReal) (h : (⟨1, ![n]⟩ : Shape).ShapeCasts ⟨2, ![1, n]⟩) :
    shapeCast ⟨2, ![1, n]⟩ v h = Cert.Gcn.rowOf v := by
  funext i
  obtain ⟨u, k, rfl⟩ : ∃ (u : Fin 1) (k : Fin n), i = ix2 u k := ⟨i 0, i 1, eq_ix2 i⟩
  exact shapeCast_a_1a_apply v h u k

/-- A one-column matrix cast to a row: entry `k` of the row is the column's entry of row `k` (both sit at row-major
    position `k`). -/
theorem cast_col_row {n : ℕ} (v : (⟨2, ![n, 1]⟩ : Shape).Idx → EReal) (h : (⟨2, ![n, 1]⟩ : Shape).ShapeCasts ⟨2, ![1, n]⟩) :
    shapeCast ⟨2, ![1, n]⟩ v h = Cert.Gcn.rowOfCol v := by
  funext i
  obtain ⟨u, k, rfl⟩ : ∃ (u : Fin 1) (k : Fin n), i = ix2 u k := ⟨i 0, i 1, eq_ix2 i⟩
  refine shapeCast_apply v h _ (ix2 k (0 : Fin 1)) ?_
  have hu : u.val = 0 := by omega
  rw [Shape.rowMajor_val_two, Shape.rowMajor_val_two]
  show k.val * 1 + 0 = u.val * n + k.val
  rw [hu, Nat.mul_one, Nat.add_zero, Nat.zero_mul, Nat.zero_add]

/-- A one-entry vector cast to the one-entry matrix. -/
theorem cast_cell (v : (⟨1, ![1]⟩ : Shape).Idx → EReal) (h : (⟨1, ![1]⟩ : Shape).ShapeCasts ⟨2, ![1, 1]⟩) :
    shapeCast ⟨2, ![1, 1]⟩ v h = Cert.Gcn.cellOf v := by
  funext i
  obtain ⟨u, k, rfl⟩ : ∃ (u : Fin 1) (k : Fin 1), i = ix2 u k := ⟨i 0, i 1, eq_ix2 i⟩
  obtain rfl : k = 0 := Subsingleton.elim _ _
  exact shapeCast_a_1a_apply v h u 0

variable (m : (ℓ : Loc nD τ sig) → Buf (Elt Ideal) ℓ) (ρ : Dev nD → PrngReg)

/-! ## After the first host stretch (the first kernel's entry) -/

theorem entry1_arg0 (c : Dev nD) : V1 m ρ c main_arg0 = m ((c : Thread nD τ).loc main_arg0) := by
  show StableHlo.after hostOps0 (W0 m ρ c) (Proc.devRef .tc main_arg0) = _
  after_results
theorem entry1_arg1 (c : Dev nD) : V1 m ρ c main_arg1 = m ((c : Thread nD τ).loc main_arg1) := by
  show StableHlo.after hostOps0 (W0 m ρ c) (Proc.devRef .tc main_arg1) = _
  after_results
theorem entry1_arg3 (c : Dev nD) : V1 m ρ c main_arg3 = m ((c : Thread nD τ).loc main_arg3) := by
  show StableHlo.after hostOps0 (W0 m ρ c) (Proc.devRef .tc main_arg3) = _
  after_results
theorem entry1_arg7 (c : Dev nD) : V1 m ρ c main_arg7 = m ((c : Thread nD τ).loc main_arg7) := by
  show StableHlo.after hostOps0 (W0 m ρ c) (Proc.devRef .tc main_arg7) = _
  after_results
theorem entry1_arg8 (c : Dev nD) : V1 m ρ c main_arg8 = m ((c : Thread nD τ).loc main_arg8) := by
  show StableHlo.after hostOps0 (W0 m ρ c) (Proc.devRef .tc main_arg8) = _
  after_results

/-- The source-side factor column. -/
theorem entry1_v11 (c : Dev nD) :
    (V1 m ρ c main_v11 : S100000x1.Idx → EReal) = Cert.Gcn.colOf (factor (m ((c : Thread nD τ).loc main_arg7))) := by
  refine Eq.trans ?_ (cast_col (factor (m ((c : Thread nD τ).loc main_arg7))) shapeCasts_S100000_S100000x1)
  show StableHlo.after hostOps0 (W0 m ρ c) (Proc.devRef .tc main_v11) = _
  after_results
  rfl
/-- The destination-side factor column. -/
theorem entry1_v16 (c : Dev nD) :
    (V1 m ρ c main_v16 : S100000x1.Idx → EReal) = Cert.Gcn.colOf (factor (m ((c : Thread nD τ).loc main_arg8))) := by
  refine Eq.trans ?_ (cast_col (factor (m ((c : Thread nD τ).loc main_arg8))) shapeCasts_S100000_S100000x1)
  show StableHlo.after hostOps0 (W0 m ρ c) (Proc.devRef .tc main_v16) = _
  after_results
  rfl
/-- The first layer's bias row. -/
theorem entry1_v17 (c : Dev nD) :
    (V1 m ρ c main_v17 : S1x128.Idx → EReal) = Cert.Gcn.rowOf (m ((c : Thread nD τ).loc main_arg2)) := by
  refine Eq.trans ?_ (cast_row (m ((c : Thread nD τ).loc main_arg2)) shapeCasts_S128_S1x128)
  show StableHlo.after hostOps0 (W0 m ρ c) (Proc.devRef .tc main_v17) = _
  after_results
  rfl
/-- The second layer's bias row. -/
theorem entry1_v18 (c : Dev nD) :
    (V1 m ρ c main_v18 : S1x128.Idx → EReal) = Cert.Gcn.rowOf (m ((c : Thread nD τ).loc main_arg4)) := by
  refine Eq.trans ?_ (cast_row (m ((c : Thread nD τ).loc main_arg4)) shapeCasts_S128_S1x128)
  show StableHlo.after hostOps0 (W0 m ρ c) (Proc.devRef .tc main_v18) = _
  after_results
  rfl
/-- The read-out weights as a row. -/
theorem entry1_v19 (c : Dev nD) :
    (V1 m ρ c main_v19 : S1x128.Idx → EReal) = Cert.Gcn.rowOfCol (m ((c : Thread nD τ).loc main_arg5)) := by
  refine Eq.trans ?_ (cast_col_row (m ((c : Thread nD τ).loc main_arg5)) shapeCasts_S128x1_S1x128)
  show StableHlo.after hostOps0 (W0 m ρ c) (Proc.devRef .tc main_v19) = _
  after_results
  rfl
/-- The read-out bias as the one-entry matrix. -/
theorem entry1_v20 (c : Dev nD) :
    (V1 m ρ c main_v20 : S1x1.Idx → EReal) = Cert.Gcn.cellOf (m ((c : Thread nD τ).loc main_arg6)) := by
  refine Eq.trans ?_ (cast_cell (m ((c : Thread nD τ).loc main_arg6)) shapeCasts_S1_S1x1)
  show StableHlo.after hostOps0 (W0 m ρ c) (Proc.devRef .tc main_v20) = _
  after_results
  rfl

/-! ## After the first kernel -/

/-- The first kernel's output: the first layer's linear map of the arrays the kernel found. -/
theorem exit1_v21 (c : Dev nD) :
    V2 m ρ c main_v21 = Cert.Gcn.linCol (V1 m ρ c main_arg0) (V1 m ρ c main_v11) (V1 m ρ c main_arg1) :=
  (W2_arr m ρ c 3).trans (FirstMap.array (V1 m ρ) c)
/-- An input array of the first kernel is as the kernel found it. -/
theorem exit1_v11 (c : Dev nD) : V2 m ρ c main_v11 = V1 m ρ c main_v11 :=
  (W2_arr m ρ c 1).trans (((dat0 (V1 m ρ) c).arrAt_in 1 rfl _).trans (A_eq0 (V1 m ρ) c 1))
/-- A buffer that is none of the first kernel's arrays is as it was. -/
theorem exit1_keep (c : Dev nD) (b : Ref sig .tc) (hb : ∀ w, Pipeline.arrRef spec0 w ≠ b) : V2 m ρ c b = V1 m ρ c b :=
  W2_of_ne m ρ c b hb

/-! ## After the second host stretch (the second kernel's entry) -/

/-- The first aggregation. -/
theorem entry2_v32 (c : Dev nD) :
    V3 m ρ c main_v32 = aggr (V2 m ρ c main_arg7) (V2 m ρ c main_arg8) (V2 m ρ c main_v21) := by
  show StableHlo.after hostOps1 (W2 m ρ c) (Proc.devRef .tc main_v32) = _
  after_results
  rfl
theorem entry2_v11 (c : Dev nD) : V3 m ρ c main_v11 = V2 m ρ c main_v11 := by
  show StableHlo.after hostOps1 (W2 m ρ c) (Proc.devRef .tc main_v11) = _
  after_results
theorem entry2_v16 (c : Dev nD) : V3 m ρ c main_v16 = V2 m ρ c main_v16 := by
  show StableHlo.after hostOps1 (W2 m ρ c) (Proc.devRef .tc main_v16) = _
  after_results
theorem entry2_v17 (c : Dev nD) : V3 m ρ c main_v17 = V2 m ρ c main_v17 := by
  show StableHlo.after hostOps1 (W2 m ρ c) (Proc.devRef .tc main_v17) = _
  after_results
theorem entry2_v18 (c : Dev nD) : V3 m ρ c main_v18 = V2 m ρ c main_v18 := by
  show StableHlo.after hostOps1 (W2 m ρ c) (Proc.devRef .tc main_v18) = _
  after_results
theorem entry2_v19 (c : Dev nD) : V3 m ρ c main_v19 = V2 m ρ c main_v19 := by
  show StableHlo.after hostOps1 (W2 m ρ c) (Proc.devRef .tc main_v19) = _
  after_results
theorem entry2_v20 (c : Dev nD) : V3 m ρ c main_v20 = V2 m ρ c main_v20 := by
  show StableHlo.after hostOps1 (W2 m ρ c) (Proc.devRef .tc main_v20) = _
  after_results
theorem entry2_arg3 (c : Dev nD) : V3 m ρ c main_arg3 = V2 m ρ c main_arg3 := by
  show StableHlo.after hostOps1 (W2 m ρ c) (Proc.devRef .tc main_arg3) = _
  after_results
theorem entry2_arg7 (c : Dev nD) : V3 m ρ c main_arg7 = V2 m ρ c main_arg7 := by
  show StableHlo.after hostOps1 (W2 m ρ c) (Proc.devRef .tc main_arg7) = _
  after_results
theorem entry2_arg8 (c : Dev nD) : V3 m ρ c main_arg8 = V2 m ρ c main_arg8 := by
  show StableHlo.after hostOps1 (W2 m ρ c) (Proc.devRef .tc main_arg8) = _
  after_results

/-! ## After the second kernel -/

/-- The second kernel's output: the second layer's linear map of the activation of the arrays the kernel found. -/
theorem exit2_v33 (c : Dev nD) :
    V4 m ρ c main_v33 = Cert.Gcn.linCol (Cert.Gcn.actCol (V3 m ρ c main_v32) (V3 m ρ c main_v16) (V3 m ρ c main_v17))
      (V3 m ρ c main_v11) (V3 m ρ c main_arg3) :=
  (W4_arr m ρ c 5).trans (SecondMap.array (V3 m ρ) c)
/-- An input array of the second kernel is as the kernel found it. -/
theorem exit2_v16 (c : Dev nD) : V4 m ρ c main_v16 = V3 m ρ c main_v16 :=
  (W4_arr m ρ c 1).trans (((dat1 (V3 m ρ) c).arrAt_in 1 rfl _).trans (A_eq1 (V3 m ρ) c 1))
/-- A buffer that is none of the second kernel's arrays is as it was. -/
theorem exit2_keep (c : Dev nD) (b : Ref sig .tc) (hb : ∀ w, Pipeline.arrRef spec1 w ≠ b) : V4 m ρ c b = V3 m ρ c b :=
  W4_of_ne m ρ c b hb

/-! ## After the third host stretch (the third kernel's entry) -/

/-- The second aggregation. -/
theorem entry3_v44 (c : Dev nD) :
    V5 m ρ c main_v44 = aggr (V4 m ρ c main_arg7) (V4 m ρ c main_arg8) (V4 m ρ c main_v33) := by
  show StableHlo.after hostOps2 (W4 m ρ c) (Proc.devRef .tc main_v44) = _
  after_results
  rfl
theorem entry3_v16 (c : Dev nD) : V5 m ρ c main_v16 = V4 m ρ c main_v16 := by
  show StableHlo.after hostOps2 (W4 m ρ c) (Proc.devRef .tc main_v16) = _
  after_results
theorem entry3_v18 (c : Dev nD) : V5 m ρ c main_v18 = V4 m ρ c main_v18 := by
  show StableHlo.after hostOps2 (W4 m ρ c) (Proc.devRef .tc main_v18) = _
  after_results
theorem entry3_v19 (c : Dev nD) : V5 m ρ c main_v19 = V4 m ρ c main_v19 := by
  show StableHlo.after hostOps2 (W4 m ρ c) (Proc.devRef .tc main_v19) = _
  after_results
theorem entry3_v20 (c : Dev nD) : V5 m ρ c main_v20 = V4 m ρ c main_v20 := by
  show StableHlo.after hostOps2 (W4 m ρ c) (Proc.devRef .tc main_v20) = _
  after_results

/-! ## Each buffer a later kernel reads, back to the arguments -/

theorem src_at2 (c : Dev nD) : V2 m ρ c main_arg7 = m ((c : Thread nD τ).loc main_arg7) :=
  (exit1_keep m ρ c main_arg7 (by decide)).trans (entry1_arg7 m ρ c)
theorem dst_at2 (c : Dev nD) : V2 m ρ c main_arg8 = m ((c : Thread nD τ).loc main_arg8) :=
  (exit1_keep m ρ c main_arg8 (by decide)).trans (entry1_arg8 m ρ c)
theorem src_at4 (c : Dev nD) : V4 m ρ c main_arg7 = m ((c : Thread nD τ).loc main_arg7) :=
  (exit2_keep m ρ c main_arg7 (by decide)).trans ((entry2_arg7 m ρ c).trans (src_at2 m ρ c))
theorem dst_at4 (c : Dev nD) : V4 m ρ c main_arg8 = m ((c : Thread nD τ).loc main_arg8) :=
  (exit2_keep m ρ c main_arg8 (by decide)).trans ((entry2_arg8 m ρ c).trans (dst_at2 m ρ c))
theorem weights2_at3 (c : Dev nD) : V3 m ρ c main_arg3 = m ((c : Thread nD τ).loc main_arg3) :=
  (entry2_arg3 m ρ c).trans ((exit1_keep m ρ c main_arg3 (by decide)).trans (entry1_arg3 m ρ c))
theorem srcFactor_at3 (c : Dev nD) :
    (V3 m ρ c main_v11 : S100000x1.Idx → EReal) = Cert.Gcn.colOf (factor (m ((c : Thread nD τ).loc main_arg7))) :=
  (entry2_v11 m ρ c).trans ((exit1_v11 m ρ c).trans (entry1_v11 m ρ c))
theorem dstFactor_at3 (c : Dev nD) :
    (V3 m ρ c main_v16 : S100000x1.Idx → EReal) = Cert.Gcn.colOf (factor (m ((c : Thread nD τ).loc main_arg8))) :=
  (entry2_v16 m ρ c).trans ((exit1_keep m ρ c main_v16 (by decide)).trans (entry1_v16 m ρ c))
theorem bias1_at3 (c : Dev nD) :
    (V3 m ρ c main_v17 : S1x128.Idx → EReal) = Cert.Gcn.rowOf (m ((c : Thread nD τ).loc main_arg2)) :=
  (entry2_v17 m ρ c).trans ((exit1_keep m ρ c main_v17 (by decide)).trans (entry1_v17 m ρ c))
theorem dstFactor_at5 (c : Dev nD) :
    (V5 m ρ c main_v16 : S100000x1.Idx → EReal) = Cert.Gcn.colOf (factor (m ((c : Thread nD τ).loc main_arg8))) :=
  (entry3_v16 m ρ c).trans ((exit2_v16 m ρ c).trans (dstFactor_at3 m ρ c))
theorem bias2_at5 (c : Dev nD) :
    (V5 m ρ c main_v18 : S1x128.Idx → EReal) = Cert.Gcn.rowOf (m ((c : Thread nD τ).loc main_arg4)) :=
  (entry3_v18 m ρ c).trans ((exit2_keep m ρ c main_v18 (by decide)).trans ((entry2_v18 m ρ c).trans
    ((exit1_keep m ρ c main_v18 (by decide)).trans (entry1_v18 m ρ c))))
theorem readWeights_at5 (c : Dev nD) :
    (V5 m ρ c main_v19 : S1x128.Idx → EReal) = Cert.Gcn.rowOfCol (m ((c : Thread nD τ).loc main_arg5)) :=
  (entry3_v19 m ρ c).trans ((exit2_keep m ρ c main_v19 (by decide)).trans ((entry2_v19 m ρ c).trans
    ((exit1_keep m ρ c main_v19 (by decide)).trans (entry1_v19 m ρ c))))
theorem readBias_at5 (c : Dev nD) :
    (V5 m ρ c main_v20 : S1x1.Idx → EReal) = Cert.Gcn.cellOf (m ((c : Thread nD τ).loc main_arg6)) :=
  (entry3_v20 m ρ c).trans ((exit2_keep m ρ c main_v20 (by decide)).trans ((entry2_v20 m ρ c).trans
    ((exit1_keep m ρ c main_v20 (by decide)).trans (entry1_v20 m ρ c))))

/-! ## The result -/

/-- THE RESULT ARRAY at the last boundary is the network of the arguments: the factor vectors from the two edge-end
    lists, the aggregation over the edges, and the seven float arguments. -/
theorem result_value (c : Dev nD) :
    W6 m ρ c (Proc.devRef .tc main_v45)
      = Cert.Gcn.net (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6))
          (factor (m ((c : Thread nD τ).loc main_arg7))) (factor (m ((c : Thread nD τ).loc main_arg8)))
          (aggr (m ((c : Thread nD τ).loc main_arg7)) (m ((c : Thread nD τ).loc main_arg8))) := by
  refine ((W6_arr m ρ c 5).trans (ReadOut.array (V5 m ρ) c)).trans ?_
  rw [entry3_v44, dstFactor_at5, bias2_at5, readWeights_at5, readBias_at5, exit2_v33, src_at4, dst_at4,
    entry2_v32, dstFactor_at3, bias1_at3, srcFactor_at3, weights2_at3, exit1_v21, src_at2, dst_at2,
    entry1_arg0, entry1_v11, entry1_arg1]
  rfl

end Cert.KernelIdeal.Whole

end
-- ==== Proof.RefNet.lean ====
/-
  The reference program computes the two-layer graph convolution network of its arguments.

  Each stage of the program is read at an index and compared with the matching function of the specification:
  the linear map of a layer, the aggregation over the edges (kept as the two host operations it is), the step
  between the layers and the read-out. Both sides group every sum and product the same way, so every step is
  the reading of one operation at an index.
-/
import proofs.«113927_j56487409877510_2_alg».proof.Proof.Gen.ReferenceIdeal.Read
import proofs.«113927_j56487409877510_2_alg».proof.Proof.Spec
import Idealize.ShloMosaic.Lib.ValueIdx
import Idealize.ShloMosaic.Lib.ValueLayout
import Idealize.ShloMosaic.PureOps.Ideal.Laws

noncomputable section

namespace Cert.ReferenceIdeal.RefNet

open Cert.ReferenceIdeal Cert.ReferenceIdeal.Gen Cert.ReferenceIdeal.Read Idealize.ShloMosaic Idealize.ShloMosaic.ValueIdx

/-- The aggregation over the edges that both layers share: the rows of the source nodes are gathered along the edges
    and added into the rows of the destination nodes, starting from zeros. -/
def aggr (x7 x8 : (⟨S1600000, .i32⟩ : BufTy).Contents (Elt Ideal)) (a : (⟨S100000x128, .f32⟩ : BufTy).Contents (Elt Ideal)) :
    (⟨S100000x128, .f32⟩ : BufTy).Contents (Elt Ideal) :=
  Host.scatterAdd (F := Ideal) (φ := .f32) scatter_S100000x128_S1600000x1_S1600000x128_1_0_0_1 (val_main_v26 (F := Ideal))
    (val_main_v27 (F := Ideal) x8)
    (Host.gather gather_S100000x128_S1600000x1_S1600000x128_1_0_n_n_0_1_1128 a (val_main_v24 (F := Ideal) x7))

/-- The first linear map: the features scaled by the source factors, times the first weights. -/
theorem first_map (x0 : (⟨S100000x256, .f32⟩ : BufTy).Contents (Elt Ideal)) (x1 : (⟨S256x128, .f32⟩ : BufTy).Contents (Elt Ideal))
    (x7 : (⟨S1600000, .i32⟩ : BufTy).Contents (Elt Ideal)) :
    val_main_v18 (F := Ideal) x0 x1 x7 = Cert.Gcn.lin x0 (val_main_v10 (F := Ideal) x7) x1 := by
  funext i
  obtain ⟨p, q, rfl⟩ : ∃ (p : Fin 100000) (q : Fin 128), i = ix2 p q := ⟨i 0, i 1, eq_ix2 i⟩
  rw [val_main_v18_apply, Cert.Gcn.lin_ix2]
  refine Finset.sum_congr rfl fun k _ => ?_
  have el : lidx_main_v18 (ix2 p q) k = ix2 p k :=
    funext fun a => Fin.ext (by match a with | ⟨0, _⟩ => rfl | ⟨1, _⟩ => rfl)
  have er : ridx_main_v18 (ix2 p q) k = ix2 k q :=
    funext fun a => Fin.ext (by match a with | ⟨0, _⟩ => rfl | ⟨1, _⟩ => rfl)
  have es : idx_main_v15 (idx_main_v16 (ix2 p k)) = ix1 p :=
    funext fun a => Fin.ext (by match a with | ⟨0, _⟩ => rfl)
  rw [el, er, val_main_v17_apply, val_main_v16_apply, val_main_v15_apply, es]
  rfl

/-- The first aggregation is the shared aggregation of the first linear map. -/
theorem first_agg (x0 : (⟨S100000x256, .f32⟩ : BufTy).Contents (Elt Ideal)) (x1 : (⟨S256x128, .f32⟩ : BufTy).Contents (Elt Ideal))
    (x7 x8 : (⟨S1600000, .i32⟩ : BufTy).Contents (Elt Ideal)) :
    val_main_v28 (F := Ideal) x0 x1 x7 x8 = aggr x7 x8 (val_main_v18 (F := Ideal) x0 x1 x7) := rfl

/-- The second linear map: the activation of the first layer scaled by the source factors, times the second weights. -/
theorem second_map (x0 : (⟨S100000x256, .f32⟩ : BufTy).Contents (Elt Ideal)) (x1 : (⟨S256x128, .f32⟩ : BufTy).Contents (Elt Ideal))
    (x2 : (⟨S128, .f32⟩ : BufTy).Contents (Elt Ideal)) (x3 : (⟨S128x128, .f32⟩ : BufTy).Contents (Elt Ideal))
    (x7 x8 : (⟨S1600000, .i32⟩ : BufTy).Contents (Elt Ideal)) :
    val_main_v39 (F := Ideal) x0 x1 x2 x3 x7 x8
      = Cert.Gcn.lin (Cert.Gcn.act (val_main_v28 (F := Ideal) x0 x1 x7 x8) (val_main_v14 (F := Ideal) x8) x2)
          (val_main_v10 (F := Ideal) x7) x3 := by
  funext i
  obtain ⟨p, q, rfl⟩ : ∃ (p : Fin 100000) (q : Fin 128), i = ix2 p q := ⟨i 0, i 1, eq_ix2 i⟩
  rw [val_main_v39_apply, Cert.Gcn.lin_ix2]
  refine Finset.sum_congr rfl fun k _ => ?_
  have el : lidx_main_v39 (ix2 p q) k = ix2 p k :=
    funext fun a => Fin.ext (by match a with | ⟨0, _⟩ => rfl | ⟨1, _⟩ => rfl)
  have er : ridx_main_v39 (ix2 p q) k = ix2 k q :=
    funext fun a => Fin.ext (by match a with | ⟨0, _⟩ => rfl | ⟨1, _⟩ => rfl)
  have es : idx_main_v36 (idx_main_v37 (ix2 p k)) = ix1 p :=
    funext fun a => Fin.ext (by match a with | ⟨0, _⟩ => rfl)
  have ed : idx_main_v29 (idx_main_v30 (ix2 p k)) = ix1 p :=
    funext fun a => Fin.ext (by match a with | ⟨0, _⟩ => rfl)
  have eb : idx_main_v32 (idx_main_v33 (ix2 p k)) = ix1 k :=
    funext fun a => Fin.ext (by match a with | ⟨0, _⟩ => rfl)
  rw [el, er, Cert.Gcn.act_ix2, val_main_v38_apply, val_main_v35_apply, val_main_v34_apply, val_main_v31_apply,
    val_main_v30_apply, val_main_v29_apply, ed, val_main_v33_apply, val_main_v32_apply, eb,
    val_main_call0_v0_apply, val_main_call0_cst_apply, val_main_v37_apply, val_main_v36_apply, es]
  rfl

/-- The second aggregation is the shared aggregation of the second linear map. -/
theorem second_agg (x0 : (⟨S100000x256, .f32⟩ : BufTy).Contents (Elt Ideal)) (x1 : (⟨S256x128, .f32⟩ : BufTy).Contents (Elt Ideal))
    (x2 : (⟨S128, .f32⟩ : BufTy).Contents (Elt Ideal)) (x3 : (⟨S128x128, .f32⟩ : BufTy).Contents (Elt Ideal))
    (x7 x8 : (⟨S1600000, .i32⟩ : BufTy).Contents (Elt Ideal)) :
    val_main_v49 (F := Ideal) x0 x1 x2 x3 x7 x8 = aggr x7 x8 (val_main_v39 (F := Ideal) x0 x1 x2 x3 x7 x8) := rfl

/-- The read-out: the second aggregation scaled by the destination factors plus the second bias, times the read-out
    column, plus the read-out bias. -/
theorem read_out (x0 : (⟨S100000x256, .f32⟩ : BufTy).Contents (Elt Ideal)) (x1 : (⟨S256x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x5 : (⟨S128x1, .f32⟩ : BufTy).Contents (Elt Ideal))
    (x6 : (⟨S1, .f32⟩ : BufTy).Contents (Elt Ideal)) (x7 x8 : (⟨S1600000, .i32⟩ : BufTy).Contents (Elt Ideal)) :
    val_main_v59 (F := Ideal) x0 x1 x2 x3 x4 x5 x6 x7 x8
      = Cert.Gcn.out (val_main_v49 (F := Ideal) x0 x1 x2 x3 x7 x8) (val_main_v14 (F := Ideal) x8) x4 x5 x6 := by
  funext i
  obtain ⟨p, u, rfl⟩ : ∃ (p : Fin 100000) (u : Fin 1), i = ix2 p u := ⟨i 0, i 1, eq_ix2 i⟩
  obtain rfl : u = 0 := Subsingleton.elim _ _
  have e6 : idx_main_v57 (idx_main_v58 (ix2 p (0 : Fin 1))) = ix1 (0 : Fin 1) :=
    funext fun a => Fin.ext (by match a with | ⟨0, _⟩ => rfl)
  rw [val_main_v59_apply, val_main_v56_apply, Cert.Gcn.out_ix2, val_main_v58_apply, val_main_v57_apply, e6]
  refine congrArg₂ (· + ·) (Finset.sum_congr rfl fun k _ => ?_) rfl
  have el : lidx_main_v56 (ix2 p (0 : Fin 1)) k = ix2 p k :=
    funext fun a => Fin.ext (by match a with | ⟨0, _⟩ => rfl | ⟨1, _⟩ => rfl)
  have er : ridx_main_v56 (ix2 p (0 : Fin 1)) k = ix2 k (0 : Fin 1) :=
    funext fun a => Fin.ext (by match a with | ⟨0, _⟩ => rfl | ⟨1, _⟩ => rfl)
  have ed : idx_main_v50 (idx_main_v51 (ix2 p k)) = ix1 p :=
    funext fun a => Fin.ext (by match a with | ⟨0, _⟩ => rfl)
  have eb : idx_main_v53 (idx_main_v54 (ix2 p k)) = ix1 k :=
    funext fun a => Fin.ext (by match a with | ⟨0, _⟩ => rfl)
  rw [el, er, val_main_v55_apply, val_main_v52_apply, val_main_v51_apply, val_main_v50_apply, ed,
    val_main_v54_apply, val_main_v53_apply, eb]
  rfl

/-- The reference program's result is the network of its arguments, with the node factors and the aggregation the
    program computes from the edge lists. -/
theorem result (x0 : (⟨S100000x256, .f32⟩ : BufTy).Contents (Elt Ideal)) (x1 : (⟨S256x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x5 : (⟨S128x1, .f32⟩ : BufTy).Contents (Elt Ideal))
    (x6 : (⟨S1, .f32⟩ : BufTy).Contents (Elt Ideal)) (x7 x8 : (⟨S1600000, .i32⟩ : BufTy).Contents (Elt Ideal)) :
    val_main_v59 (F := Ideal) x0 x1 x2 x3 x4 x5 x6 x7 x8
      = Cert.Gcn.net x0 x1 x2 x3 x4 x5 x6 (val_main_v10 (F := Ideal) x7) (val_main_v14 (F := Ideal) x8) (aggr x7 x8) := by
  rw [read_out, second_agg, second_map, first_agg, first_map]
  rfl

end Cert.ReferenceIdeal.RefNet

end
-- ==== Proof.lean ====
/-
  The certificate's five claims for a two-layer graph convolution with a linear read-out, computed by three
  kernels among host operations, against its plain reference.

  Both programs compute, for 100000 nodes and 1600000 edges given as two lists of edge ends: the two node-factor
  vectors (the number of edges naming a node at one end, raised to at least one, to the power minus one half);
  then, twice, a layer — the node rows scaled by the source-side factor and multiplied by a weight matrix, gathered
  along the edges and added up at the destination nodes, scaled by the destination-side factor, a bias added —
  with the positive part after the first layer and, after the second, the inner product with the read-out column
  plus the read-out bias. On the extended reals (a float an exact extended real, every operation the exact one, a
  change of format the identity) the two programs group every sum and every product in the same way, so no law of
  arithmetic is needed and the precondition is never opened: the kernel's matrix products into a zero accumulator
  and its row sum from zero are the reference's contractions, and its blocks of 4000 rows tile the arrays.

  The kernel program's result array is read off its run as `Cert.Gcn.net` of the arguments (the modules FirstMap,
  SecondMap, ReadOut, KernelRun, KernelValue), the reference's result term is the same function (RefNet), and the
  host-side factor vectors and aggregation of the two programs are one and the same term.
-/
import proofs.«113927_j56487409877510_2_alg».proof.Defs
import proofs.«113927_j56487409877510_2_alg».proof.Proof.Gen.Kernel
import proofs.«113927_j56487409877510_2_alg».proof.Proof.Gen.Kernel.Skeleton
import proofs.«113927_j56487409877510_2_alg».proof.Proof.Gen.Kernel.Launch
import proofs.«113927_j56487409877510_2_alg».proof.Proof.Gen.Kernel.Points
import proofs.«113927_j56487409877510_2_alg».proof.Proof.Gen.Kernel.Frame
import proofs.«113927_j56487409877510_2_alg».proof.Proof.Gen.KernelIdeal
import proofs.«113927_j56487409877510_2_alg».proof.Proof.Gen.KernelIdeal.Skeleton
import proofs.«113927_j56487409877510_2_alg».proof.Proof.Gen.KernelIdeal.Launch
import proofs.«113927_j56487409877510_2_alg».proof.Proof.Gen.KernelIdeal.Points
import proofs.«113927_j56487409877510_2_alg».proof.Proof.Gen.KernelIdeal.Frame
import proofs.«113927_j56487409877510_2_alg».proof.Proof.Gen.ReferenceIdeal
import proofs.«113927_j56487409877510_2_alg».proof.Proof.Gen.Pre_finite_inputs
import proofs.«113927_j56487409877510_2_alg».proof.Proof.Gen.ReferenceIdeal.Read
import Idealize.ShloMosaic.Adequacy
import Idealize.ShloMosaic.Init
import proofs.«113927_j56487409877510_2_alg».proof.Proof.KernelRun
import proofs.«113927_j56487409877510_2_alg».proof.Proof.KernelValue
import proofs.«113927_j56487409877510_2_alg».proof.Proof.RefNet

noncomputable section

namespace Cert.Proof

open Idealize.ShloMosaic Idealize.ShloMosaic.TcCoe Idealize.SL.Sem

/-! ## The two programs' host-side terms are the same -/

/-- The reference's source-side factor vector is the kernel program's: the same operations with the same literals. -/
theorem factor_src (e : (⟨Cert.ReferenceIdeal.S1600000, .i32⟩ : BufTy).Contents (Elt Ideal)) :
    Cert.ReferenceIdeal.Read.val_main_v10 (F := Ideal) e = Cert.KernelIdeal.Whole.factor e := rfl

/-- The reference's destination-side factor vector is the kernel program's. -/
theorem factor_dst (e : (⟨Cert.ReferenceIdeal.S1600000, .i32⟩ : BufTy).Contents (Elt Ideal)) :
    Cert.ReferenceIdeal.Read.val_main_v14 (F := Ideal) e = Cert.KernelIdeal.Whole.factor e := rfl

/-- The reference's aggregation over the edges is the kernel program's: the kernel program gathers rows kept in a
    narrower format and widens them before adding, which on the extended reals changes nothing. -/
theorem aggr_same (s d : (⟨Cert.ReferenceIdeal.S1600000, .i32⟩ : BufTy).Contents (Elt Ideal)) :
    Cert.ReferenceIdeal.RefNet.aggr s d = Cert.KernelIdeal.Whole.aggr s d := rfl

/-! ## The claims -/

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the network of the arguments in their result
    arrays: the kernel program by its run read through its three regions, the reference by its run read operation by
    operation, the host-side terms of the two the same. -/
theorem algebraic : Cert.algebraic_KernelIdeal_ReferenceIdeal := by
  intro m ρ m' ρ' _ hagree
  refine ⟨fun c => Cert.KernelIdeal.Gen.W6 m ρ c (Proc.devRef .tc Cert.KernelIdeal.main_v45),
    Cert.KernelIdeal.Whole.run_named (F := Ideal) m ρ, ?_⟩
  refine (θ_run Cert.ReferenceIdeal.defs _ _).mono
    (fun _ h c => ⟨(h c).1.trans (Eq.trans ?_ (Cert.KernelIdeal.Whole.result_value m ρ c).symm), (h c).2⟩)
    (Cert.ReferenceIdeal.Value.run (F := Ideal) m' ρ')
  obtain ⟨h0, h1, h2, h3, h4, h5, h6, h7, h8⟩ := hagree c
  rw [Cert.ReferenceIdeal.Read.val_main_v59_eq, Cert.ReferenceIdeal.RefNet.result, h0, h1, h2, h3, h4, h5, h6, h7, h8,
    factor_src, factor_dst, aggr_same]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
